-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x1 : Shape := ⟨2, ![524288, 1]⟩
abbrev S2x128 : Shape := ⟨2, ![2, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S524288x1 : S_.BroadcastsInDim S524288x1 (![] : Fin 0 → Fin S524288x1.rank)
  reducesTo_S524288x1_S_d0_1 : S524288x1.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S128x128 .f32) (main_arg8 : FVec F S128 .f32) (main_arg9 : FVec F S128x1 .f32) (main_arg10 : FVec F S1 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg9
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S524288x1 .f32) (main_arg1 : FVec F S524288x1 .f32) (main_arg2 : FVec F S524288x1 .f32) (main_arg3 : FVec F S2x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) : IVec S_ 1 :=
  let main_v0 : FVec F S524288x1 .f32 := Host.absf main_arg0
  let main_cst : FVec F S_ .f32 := constant S_ .f32 0x7F800000#32
  let main_v1 : FVec F S524288x1 .f32 := broadcastInDim S524288x1 ![] bcast_S_S524288x1 main_cst
  let main_v2 : IVec S524288x1 1 := cmpf .olt main_v0 main_v1
  let main_c : IVec S_ 1 := constantI S_ 1 1#1
  let main_v3 : IVec S_ 1 := (fun x v => Host.reduce IntOp.andi x v reducesTo_S524288x1_S_d0_1 h_S_) main_v2 main_c
  let main_v4 : FVec F S524288x1 .f32 := Host.absf main_arg1
  let main_cst_0 : FVec F S_ .f32 := constant S_ .f32 0x7F800000#32
  let main_v5 : FVec F S524288x1 .f32 := broadcastInDim S524288x1 ![] bcast_S_S524288x1 main_cst_0
  let main_v6 : IVec S524288x1 1 := cmpf .olt main_v4 main_v5
  let main_c_1 : IVec S_ 1 := constantI S_ 1 1#1
  let main_v7 : IVec S_ 1 := (fun x v => Host.reduce IntOp.andi x v reducesTo_S524288x1_S_d0_1 h_S_) main_v6 main_c_1
  let main_v8 : IVec S_ 1 := andi main_v3 main_v7
  let main_v9 : FVec F S524288x1 .f32 := Host.absf main_arg2
  let main_cst_2 : FVec F S_ .f32 := constant S_ .f32 0x7F800000#32
  let main_v10 : FVec F S524288x1 .f32 := broadcastInDim S524288x1 ![] bcast_S_S524288x1 main_cst_2
  let main_v11 : IVec S524288x1 1 := cmpf .olt main_v9 main_v10
  let main_c_3 : IVec S_ 1 := constantI S_ 1 1#1
  let main_v12 : IVec S_ 1 := (fun x v => Host.reduce IntOp.andi x v reducesTo_S524288x1_S_d0_1 h_S_) main_v11 main_c_3
  let main_v13 : IVec S_ 1 := andi main_v8 main_v12
  let main_v14 : FVec F S2x128 .f32 := Host.absf main_arg3
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg4 main_arg5 main_arg6 main_arg7 main_arg8 main_arg9 main_arg10 main_v13 main_v16
-- ==== Kernel.lean ====
abbrev S524288x1 : Shape := ⟨2, ![524288, 1]⟩
abbrev S2x128 : Shape := ⟨2, ![2, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S524288x3 : Shape := ⟨2, ![524288, 3]⟩
abbrev S1x128 : Shape := ⟨2, ![1, 128]⟩
abbrev S524288x2 : Shape := ⟨2, ![524288, 2]⟩
abbrev S4096x3 : Shape := ⟨2, ![4096, 3]⟩
abbrev S4096x2 : Shape := ⟨2, ![4096, 2]⟩
abbrev S4096x1 : Shape := ⟨2, ![4096, 1]⟩
abbrev S4096x128 : Shape := ⟨2, ![4096, 128]⟩
abbrev S4096 : Shape := ⟨1, ![4096]⟩

abbrev nBuf : Space → Nat
  | .hbm => 14
  | .vmem => 11
  | .smem => 0
  | _ => 0

abbrev bufTy : (tb : Table) → Fin (tcTables nBuf tb) → BufTy
  | .hbm, ⟨0, _⟩ => ⟨S524288x1, .f32⟩
  | .hbm, ⟨1, _⟩ => ⟨S524288x1, .f32⟩
  | .hbm, ⟨2, _⟩ => ⟨S524288x1, .f32⟩
  | .hbm, ⟨3, _⟩ => ⟨S2x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S524288x3, .f32⟩
  | .hbm, ⟨12, _⟩ => ⟨S1x128, .f32⟩
  | .hbm, ⟨13, _⟩ => ⟨S524288x2, .f32⟩
  | .local _ .vmem, ⟨0, _⟩ => ⟨S4096x3, .f32⟩
  | .local _ .vmem, ⟨1, _⟩ => ⟨S4096x3, .f32⟩
  | .local _ .vmem, ⟨2, _⟩ => ⟨S2x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S1x128, .f32⟩
  | .local _ .vmem, ⟨9, _⟩ => ⟨S4096x2, .f32⟩
  | .local _ .vmem, ⟨10, _⟩ => ⟨S4096x2, .f32⟩
  | _, _ => ⟨S524288x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S524288x1_S524288x1_S524288x1_S524288x3_d1 : Shape.Concatenates [S524288x1, S524288x1, S524288x1] S524288x3 1
  transposes_S128x1_S1x128_1_0 : S128x1.Transposes [1, 0] S1x128
  inb_S4096x3_S4096x3_0_0 : ∀ a, (![0, 0] : Fin 2 → Nat) a + S4096x3.size a ≤ S4096x3.size a
  h_S4096x3 : 0 < S4096x3.numel
  shapeCasts_S4096x3_S4096x3 : S4096x3.ShapeCasts S4096x3
  slices_S4096x3_o0_0_S4096x1 : S4096x3.Slices ![0, 0] S4096x1
  slices_S4096x3_o0_1_S4096x1 : S4096x3.Slices ![0, 1] S4096x1
  slices_S4096x3_o0_2_S4096x1 : S4096x3.Slices ![0, 2] S4096x1
  inb_S2x128_S2x128_0_0 : ∀ a, (![0, 0] : Fin 2 → Nat) a + S2x128.size a ≤ S2x128.size a
  h_S2x128 : 0 < S2x128.numel
  slices_S2x128_o0_0_S1x128 : S2x128.Slices ![0, 0] S1x128
  slices_S2x128_o1_0_S1x128 : S2x128.Slices ![1, 0] S1x128
  inb_S128_S128_0 : ∀ a, (![0] : Fin 1 → Nat) a + S128.size a ≤ S128.size a
  h_S128 : 0 < S128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S4096x1_S4096x128 : S4096x1.Broadcasts S4096x128
  broadcasts_S1x128_S4096x128 : S1x128.Broadcasts S4096x128
  shapeCasts_S128_S1x128 : S128.ShapeCasts S1x128
  reduces_S4096x128_S4096 : S4096x128.Reduces [1] S4096
  shapeCasts_S4096_S4096x1 : S4096.ShapeCasts S4096x1
  inb_S4096x2_S4096x1_0_0 : ∀ a, (![0, 0] : Fin 2 → Nat) a + S4096x1.size a ≤ S4096x2.size a
  h_S4096x1 : 0 < S4096x1.numel
  inb_S4096x2_S4096x1_0_1 : ∀ a, (![0, 1] : Fin 2 → Nat) a + S4096x1.size a ≤ S4096x2.size a
  dot_S4096x128_S128x128_S4096x128_1_0_0_1_n_n_wf : DotDims.WF S4096x128 S128x128 S4096x128 [1] [0] [0] [1] [] []
  dot_S4096x128_S128x128_S4096x128_1_1_0_0_n_n_wf : DotDims.WF S4096x128 S128x128 S4096x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S524288x3.size a
  hwx0_0 : ∀ i : grid0.Coords, EltTy.bits .f32 = 32 ∨ (Rect.block (s := S524288x3) S4096x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x2.size a ≤ S524288x2.size a
  hwx0_8 : ∀ i : grid0.Coords, EltTy.bits .f32 = 32 ∨ (Rect.block (s := S524288x2) S4096x2.size (cc0_transform_8 i) (hinb0_8 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x128_S4096x128_1_1_0_0_n_n : DotDims S4096x128 S128x128 S4096x128 where
  lhsContracting := [1]
  rhsContracting := [1]
  lhsNonContracting := [0]
  rhsNonContracting := [0]
  lhsBatch := []
  rhsBatch := []
  wf := dot_S4096x128_S128x128_S4096x128_1_1_0_0_n_n_wf

abbrev win0_0 : Pipeline.Window sig grid0 :=
  Pipeline.Window.ofSpec (Memref.whole main_v0) S4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S4096x2.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S524288x1 : Shape := ⟨2, ![524288, 1]⟩
abbrev S2x128 : Shape := ⟨2, ![2, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S524288x2 : Shape := ⟨2, ![524288, 2]⟩
abbrev S524288x128 : Shape := ⟨2, ![524288, 128]⟩
abbrev S1x128 : Shape := ⟨2, ![1, 128]⟩
abbrev S_ : Shape := ⟨0, ![]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S524288x1, .f32⟩
  | .hbm, ⟨1, _⟩ => ⟨S524288x1, .f32⟩
  | .hbm, ⟨2, _⟩ => ⟨S524288x1, .f32⟩
  | .hbm, ⟨3, _⟩ => ⟨S2x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S524288x2, .f32⟩
  | .hbm, ⟨12, _⟩ => ⟨S524288x128, .f32⟩
  | .hbm, ⟨13, _⟩ => ⟨S1x128, .f32⟩
  | .hbm, ⟨14, _⟩ => ⟨S524288x128, .f32⟩
  | .hbm, ⟨15, _⟩ => ⟨S524288x128, .f32⟩
  | .hbm, ⟨16, _⟩ => ⟨S524288x128, .f32⟩
  | .hbm, ⟨17, _⟩ => ⟨S_, .f32⟩
  | .hbm, ⟨18, _⟩ => ⟨S524288x128, .f32⟩
  | .hbm, ⟨19, _⟩ => ⟨S524288x128, .f32⟩
  | .hbm, ⟨20, _⟩ => ⟨S524288x128, .f32⟩
  | .hbm, ⟨21, _⟩ => ⟨S1x128, .f32⟩
  | .hbm, ⟨22, _⟩ => ⟨S524288x128, .f32⟩
  | .hbm, ⟨23, _⟩ => ⟨S524288x128, .f32⟩
  | .hbm, ⟨24, _⟩ => ⟨S524288x128, .f32⟩
  | .hbm, ⟨25, _⟩ => ⟨S_, .f32⟩
  | .hbm, ⟨26, _⟩ => ⟨S524288x128, .f32⟩
  | .hbm, ⟨27, _⟩ => ⟨S524288x128, .f32⟩
  | .hbm, ⟨28, _⟩ => ⟨S524288x128, .f32⟩
  | .hbm, ⟨29, _⟩ => ⟨S1x128, .f32⟩
  | .hbm, ⟨30, _⟩ => ⟨S524288x128, .f32⟩
  | .hbm, ⟨31, _⟩ => ⟨S524288x128, .f32⟩
  | .hbm, ⟨32, _⟩ => ⟨S524288x128, .f32⟩
  | .hbm, ⟨33, _⟩ => ⟨S_, .f32⟩
  | .hbm, ⟨34, _⟩ => ⟨S524288x128, .f32⟩
  | .hbm, ⟨35, _⟩ => ⟨S524288x128, .f32⟩
  | .hbm, ⟨36, _⟩ => ⟨S524288x1, .f32⟩
  | .hbm, ⟨37, _⟩ => ⟨S1x1, .f32⟩
  | .hbm, ⟨38, _⟩ => ⟨S524288x1, .f32⟩
  | .hbm, ⟨39, _⟩ => ⟨S524288x1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S524288x1, .f32⟩
  | .hbm, ⟨44, _⟩ => ⟨S524288x128, .f32⟩
  | .hbm, ⟨45, _⟩ => ⟨S524288x128, .f32⟩
  | .hbm, ⟨46, _⟩ => ⟨S524288x128, .f32⟩
  | .hbm, ⟨47, _⟩ => ⟨S524288x128, .f32⟩
  | .hbm, ⟨48, _⟩ => ⟨S524288x128, .f32⟩
  | .hbm, ⟨49, _⟩ => ⟨S524288x128, .f32⟩
  | .hbm, ⟨50, _⟩ => ⟨S524288x128, .f32⟩
  | .hbm, ⟨51, _⟩ => ⟨S524288x128, .f32⟩
  | .hbm, ⟨52, _⟩ => ⟨S524288x128, .f32⟩
  | .hbm, ⟨53, _⟩ => ⟨S524288x128, .f32⟩
  | .hbm, ⟨54, _⟩ => ⟨S524288x128, .f32⟩
  | .hbm, ⟨55, _⟩ => ⟨S524288x128, .f32⟩
  | .hbm, ⟨56, _⟩ => ⟨S524288x2, .f32⟩
  | .hbm, ⟨57, _⟩ => ⟨S524288x1, .f32⟩
  | .hbm, ⟨58, _⟩ => ⟨S524288x1, .f32⟩
  | .hbm, ⟨59, _⟩ => ⟨S524288x1, .f32⟩
  | .hbm, ⟨60, _⟩ => ⟨S524288x1, .f32⟩
  | .hbm, ⟨61, _⟩ => ⟨S_, .f32⟩
  | .hbm, ⟨62, _⟩ => ⟨S524288x1, .f32⟩
  | .hbm, ⟨63, _⟩ => ⟨S524288x1, .f32⟩
  | .hbm, ⟨64, _⟩ => ⟨S_, .f32⟩
  | .hbm, ⟨65, _⟩ => ⟨S524288x1, .f32⟩
  | .hbm, ⟨66, _⟩ => ⟨S524288x1, .f32⟩
  | .hbm, ⟨67, _⟩ => ⟨S524288x2, .f32⟩
  | _, _ => ⟨S524288x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]

class Facts₀ : Prop where
  concatenates_S524288x1_S524288x1_S524288x2_d1 : Shape.Concatenates [S524288x1, S524288x1] S524288x2 1
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  reducesTo_S524288x1_S_d0_1 : S524288x1.ReducesTo [0, 1] S_
  h_S_ : 0 < S_.numel
  bcast_S_S524288x1 : S_.BroadcastsInDim S524288x1 (![] : Fin 0 → Fin S524288x1.rank)
  slices_S524288x2_S524288x1_0_0 : S524288x2.Slices ![0, 0] S524288x1
  slices_S524288x2_S524288x1_0_1 : S524288x2.Slices ![0, 1] S524288x1
  dot_S524288x2_S2x128_S524288x128_1_0_0_1_n_n_wf : DotDims.WF S524288x2 S2x128 S524288x128 [1] [0] [0] [1] [] []
  dot_S524288x128_S128x128_S524288x128_1_0_0_1_n_n_wf : DotDims.WF S524288x128 S128x128 S524288x128 [1] [0] [0] [1] [] []
  dot_S524288x128_S128x1_S524288x1_1_0_0_1_n_n_wf : DotDims.WF S524288x128 S128x1 S524288x1 [1] [0] [0] [1] [] []
  dot_S524288x1_S128x1_S524288x128_1_1_0_0_n_n_wf : DotDims.WF S524288x1 S128x1 S524288x128 [1] [1] [0] [0] [] []
  dot_S524288x128_S128x128_S524288x128_1_1_0_0_n_n_wf : DotDims.WF S524288x128 S128x128 S524288x128 [1] [1] [0] [0] [] []
  dot_S524288x128_S2x128_S524288x2_1_1_0_0_n_n_wf : DotDims.WF S524288x128 S2x128 S524288x2 [1] [1] [0] [0] [] []

variable [Facts₀]

def dot_S524288x2_S2x128_S524288x128_1_0_0_1_n_n : DotDims S524288x2 S2x128 S524288x128 where
  lhsContracting := [1]
  rhsContracting := [0]
  lhsNonContracting := [0]
  rhsNonContracting := [1]
  lhsBatch := []
  rhsBatch := []
  wf := dot_S524288x2_S2x128_S524288x128_1_0_0_1_n_n_wf
def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def dot_S524288x128_S128x1_S524288x1_1_0_0_1_n_n : DotDims S524288x128 S128x1 S524288x1 where
  lhsContracting := [1]
  rhsContracting := [0]
  lhsNonContracting := [0]
  rhsNonContracting := [1]
  lhsBatch := []
  rhsBatch := []
  wf := dot_S524288x128_S128x1_S524288x1_1_0_0_1_n_n_wf
def dot_S524288x1_S128x1_S524288x128_1_1_0_0_n_n : DotDims S524288x1 S128x1 S524288x128 where
  lhsContracting := [1]
  rhsContracting := [1]
  lhsNonContracting := [0]
  rhsNonContracting := [0]
  lhsBatch := []
  rhsBatch := []
  wf := dot_S524288x1_S128x1_S524288x128_1_1_0_0_n_n_wf
def dot_S524288x128_S128x128_S524288x128_1_1_0_0_n_n : DotDims S524288x128 S128x128 S524288x128 where
  lhsContracting := [1]
  rhsContracting := [1]
  lhsNonContracting := [0]
  rhsNonContracting := [0]
  lhsBatch := []
  rhsBatch := []
  wf := dot_S524288x128_S128x128_S524288x128_1_1_0_0_n_n_wf
def dot_S524288x128_S2x128_S524288x2_1_1_0_0_n_n : DotDims S524288x128 S2x128 S524288x2 where
  lhsContracting := [1]
  rhsContracting := [1]
  lhsNonContracting := [0]
  rhsNonContracting := [0]
  lhsBatch := []
  rhsBatch := []
  wf := dot_S524288x128_S2x128_S524288x2_1_1_0_0_n_n_wf

class Facts : Prop extends Facts₀ where

variable [Facts]
-- ==== Proof.KernelEntry.lean ====
/-
  The program up to its one region, and what the region finds in memory.

  Before the region the host joins the three sample columns q, p, F side by side into one [524288, 3] array and
  lays the last table W4 ([128, 1]) as a row [1, 128]; nothing else is written. So when the region is entered each
  argument array still holds what it held at launch, and the two new arrays hold the join and the row.
-/
import proofs.«166184_j10488310137126_2_alg».proof.Proof.Gen.Kernel.Launch
import proofs.«166184_j10488310137126_2_alg».proof.Proof.Gen.Kernel.Points
import Idealize.ShloMosaic.Lib.Pipeline.FrameBody

noncomputable section

namespace Cert.Kernel.Hnn

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the region is entered: the launch memory after the join and the re-laying. -/
abbrev V (c : Dev nD) (b : Ref sig .tc) : Buf (Elt F) ((c : Thread nD τ).loc b) :=
  StableHlo.after hostOps0 (fun b => m (c, b)) b

/-- Neither host operation allocates. -/
theorem hostOps0_fresh : (hostOps0 : List (HloOp τ sig (Elt F))).Forall fun op => op.fresh = ∅ := by
  simp only [List.Forall]; repeat' constructor

/-- The program is its two host operations followed by the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is neither the join nor the row is found as launched. -/
theorem V_of_ne (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, Finset.mem_singleton]
    exact ⟨StableHlo.devRef_ne_of_ne h0, StableHlo.devRef_ne_of_ne h1⟩))

end Cert.Kernel.Hnn

end
-- ==== Proof.KernelBody.lean ====
/-
  The body of the region at one grid point, and the run of the whole program.

  A grid point t works on the 4096 samples t·4096 … t·4096+4095. Its body reads the point's block of the joined
  [q | p | F] array and the seven tables, whole; computes, for every sample of the block, the network's hidden rows and
  the gradient of H; and writes the two result columns ∂H/∂p·dt and (−∂H/∂q + F)·dt into the point's [4096, 2] block
  of the result, one column per store. The two stores tile the block, so after the body the block is determined by
  the inputs alone (`out8`), whatever it held before — the body also reads the block's old columns, and discards them.
  The tables' blocks are the whole tables at every point; the sample block moves with the point. From this the
  library's launch theorem gives the run: the program terminates without a fault, the result array ends at the
  blocks the points wrote, and every other array is as the region found it — in particular the arguments are unchanged.
-/
import proofs.«166184_j10488310137126_2_alg».proof.Proof.KernelEntry
import proofs.«166184_j10488310137126_2_alg».proof.Proof.Gen.Kernel.Skeleton
import Idealize.ShloMosaic.Lib.Ring
import Idealize.ShloMosaic.Lib.Tactic

set_option maxRecDepth 16384

noncomputable section

namespace Cert.Kernel.Hnn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not: unfetched, its block
    index has not moved. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, fetched there or not: unfetched, its block
    index has not moved. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, fetched there or not: unfetched, its block
    index has not moved. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every point, fetched there or not: unfetched, its block
    index has not moved. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current buffer holds its block at every point, fetched there or not: unfetched, its block
    index has not moved. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current buffer holds its block at every point, fetched there or not: unfetched, its block
    index has not moved. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current buffer holds its block at every point, fetched there or not: unfetched, its block
    index has not moved. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current buffer holds its block at every point, fetched there or not: unfetched, its block
    index has not moved. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes -/

/-- The whole-buffer rectangles the body loads through. -/
abbrev rin_S4096x3 : Rect S4096x3 := Rect.unit (s := S4096x3) ![0, 0] S4096x3.size inb_S4096x3_S4096x3_0_0
abbrev rin_S2x128 : Rect S2x128 := Rect.unit (s := S2x128) ![0, 0] S2x128.size inb_S2x128_S2x128_0_0
abbrev rin_S128 : Rect S128 := Rect.unit (s := S128) ![0] S128.size inb_S128_S128_0
abbrev rin_S128x128 : Rect S128x128 := Rect.unit (s := S128x128) ![0, 0] S128x128.size inb_S128x128_S128x128_0_0
abbrev rin_S1x128 : Rect S1x128 := Rect.unit (s := S1x128) ![0, 0] S1x128.size inb_S1x128_S1x128_0_0
/-- The two columns of the result block. -/
abbrev rcol0 : Rect S4096x2 := Rect.unit (s := S4096x2) ![0, 0] S4096x1.size inb_S4096x2_S4096x1_0_0
abbrev rcol1 : Rect S4096x2 := Rect.unit (s := S4096x2) ![0, 1] S4096x1.size inb_S4096x2_S4096x1_0_1

/-- Column 0 of the result block, ∂H/∂p · dt, from the loaded vectors. -/
def colP (v0 : Vec F S4096x3 .f32) (v5 : Vec F S2x128 .f32) (v8 : Vec F S128 .f32) (v9 : Vec F S128x128 .f32) (v10 : Vec F S128 .f32)
    (v11 : Vec F S128x128 .f32) (v12 : Vec F S128 .f32) (v13 : Vec F S1x128 .f32) : FVec F S4096x1 .f32 :=
  k0_pay2 (k0_pay7 v5) (k0_pay8 v9) (k0_pay9 v11) (k0_pay10 v0 v5 v8) (k0_pay11 v0 v5 v8 v9 v10) (k0_pay12 v13)
    (k0_pay13 v0 v5 v8 v9 v10 v11 v12) (Scalar.ofBits .f32 0x3F800000#32)

/-- Column 1 of the result block, (−∂H/∂q + F) · dt, from the loaded vectors. -/
def colQ (v0 : Vec F S4096x3 .f32) (v5 : Vec F S2x128 .f32) (v8 : Vec F S128 .f32) (v9 : Vec F S128x128 .f32) (v10 : Vec F S128 .f32)
    (v11 : Vec F S128x128 .f32) (v12 : Vec F S128 .f32) (v13 : Vec F S1x128 .f32) : FVec F S4096x1 .f32 :=
  k0_pay3 (k0_pay5 v0) (k0_pay6 v5) (k0_pay8 v9) (k0_pay9 v11) (k0_pay10 v0 v5 v8) (k0_pay11 v0 v5 v8 v9 v10) (k0_pay12 v13)
    (k0_pay13 v0 v5 v8 v9 v10 v11 v12) (Scalar.ofBits .f32 0x3F800000#32)

/-- The result block after the body, from the input blocks: its two stores as pieces, the later one first. -/
def out8 (x0 : Vec F S4096x3 .f32) (x1 : Vec F S2x128 .f32) (x2 : Vec F S128 .f32) (x3 : Vec F S128x128 .f32) (x4 : Vec F S128 .f32) (x5 : Vec F S128x128 .f32) (x6 : Vec F S128 .f32) (x7 : Vec F S1x128 .f32) : Vec F S4096x2 .f32 :=
  View.canon [⟨rcol1, colQ (View.ld x0 rin_S4096x3) (View.ld x1 rin_S2x128) (View.ld x2 rin_S128) (View.ld x3 rin_S128x128) (View.ld x4 rin_S128) (View.ld x5 rin_S128x128) (View.ld x6 rin_S128) (View.ld x7 rin_S1x128)⟩, ⟨rcol0, colP (View.ld x0 rin_S4096x3) (View.ld x1 rin_S2x128) (View.ld x2 rin_S128) (View.ld x3 rin_S128x128) (View.ld x4 rin_S128) (View.ld x5 rin_S128x128) (View.ld x6 rin_S128) (View.ld x7 rin_S1x128)⟩]

/-- The two columns tile the block. -/
theorem cover8 (p0 p1 : Vec F S4096x1 .f32) (y : S4096x2.Idx) :
    ∃ pc ∈ ([⟨rcol1, p1⟩, ⟨rcol0, p0⟩] : List (View.Piece (Elt F) S4096x2 .f32)), y ∈ pc.1.set :=
  View.cover_of_tiled [⟨rcol1, p1⟩, ⟨rcol0, p0⟩] S4096x1.size (by rfl) y

/-! ## The body's triple -/

set_option maxHeartbeats 4000000 in
/-- The body on whole buffers — the inputs' at contents `x0 … x7`, the result's at anything — runs to the continuation
    holding the inputs' as they were and the result's at `out8` of them. -/
theorem sound_kernel (c : Dev nD) (E : Set ℕ) (i : grid0.Coords) (arg1 : Memref sig .tc .vmem S4096x3 .f32) (harg1 : arg1.IsWhole) (arg2 : Memref sig .tc .vmem S2x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x128 .f32) (harg8 : arg8.IsWhole) (arg9 : Memref sig .tc .vmem S4096x2 .f32) (harg9 : arg9.IsWhole)
    (x0 : Vec F S4096x3 .f32) (x1 : Vec F S2x128 .f32) (x2 : Vec F S128 .f32) (x3 : Vec F S128x128 .f32) (x4 : Vec F S128 .f32) (x5 : Vec F S128x128 .f32) (x6 : Vec F S128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out8 x0 x1 x2 x3 x4 x5 x6 x7)) -∗ K ⟨⟩))
      ⊢ wp frame (wpE (defs₀ (F := F)) Variants.none c none) E (cc0__hnn_kernel i arg1 harg1 arg2 harg2 arg3 harg3 arg4 harg4 arg5 harg5 arg6 harg6 arg7 harg7 arg8 harg8 arg9 harg9) K := by
  simp only [cc0__hnn_kernel_eq_skeleton]; unfold cc0__hnn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover8 _ _)

/-! ## The proof data -/

/-- The region's proof data on core `c`: the arrays as the region finds them; after the body at point `t` each input's
    buffer at its block and the result's at `out8` of the input blocks; nothing carried between points beyond what
    the launch itself keeps; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_out8 (c : Dev nD) (t : Fin cfg0.N) : (dats m 0 c).after 8 t = out8 (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d
theorem before5 (c : Dev nD) (t : Fin cfg0.N) (d) : (dats m 0 c).before 5 t d = iblk m c 5 t :=
  before_in5 m (dats m 0 c) (A_eq m c 5) (after_in5 m c) t d
theorem before6 (c : Dev nD) (t : Fin cfg0.N) (d) : (dats m 0 c).before 6 t d = iblk m c 6 t :=
  before_in6 m (dats m 0 c) (A_eq m c 6) (after_in6 m c) t d
theorem before7 (c : Dev nD) (t : Fin cfg0.N) (d) : (dats m 0 c).before 7 t d = iblk m c 7 t :=
  before_in7 m (dats m 0 c) (A_eq m c 7) (after_in7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the inputs' buffers hold their blocks, so the triple applies; what the launch keeps
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_out8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates without a fault, with the
    result array at what the points wrote back and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- In a state the run may end in, every argument is as launched: a table that a window stages is never written
    back; the others no window touches; and none is written by the host before the region. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_of_ne m c main_arg0 (by decide) (by decide)),
      ((h c).2 main_arg1 (Pipeline.mem_restRefs_of main_arg1 (by decide) (by decide))).trans (V_of_ne m c main_arg1 (by decide) (by decide)),
      ((h c).2 main_arg2 (Pipeline.mem_restRefs_of main_arg2 (by decide) (by decide))).trans (V_of_ne m c main_arg2 (by decide) (by decide)),
      ((h c).1 1).trans ((((dats m 0 c).arrAt_in 1 rfl _).trans (A_eq m c 1)).trans (V_of_ne m c main_arg3 (by decide) (by decide))),
      ((h c).1 2).trans ((((dats m 0 c).arrAt_in 2 rfl _).trans (A_eq m c 2)).trans (V_of_ne m c main_arg4 (by decide) (by decide))),
      ((h c).1 3).trans ((((dats m 0 c).arrAt_in 3 rfl _).trans (A_eq m c 3)).trans (V_of_ne m c main_arg5 (by decide) (by decide))),
      ((h c).1 4).trans ((((dats m 0 c).arrAt_in 4 rfl _).trans (A_eq m c 4)).trans (V_of_ne m c main_arg6 (by decide) (by decide))),
      ((h c).1 5).trans ((((dats m 0 c).arrAt_in 5 rfl _).trans (A_eq m c 5)).trans (V_of_ne m c main_arg7 (by decide) (by decide))),
      ((h c).1 6).trans ((((dats m 0 c).arrAt_in 6 rfl _).trans (A_eq m c 6)).trans (V_of_ne m c main_arg8 (by decide) (by decide))),
      ((h c).2 main_arg9 (Pipeline.mem_restRefs_of main_arg9 (by decide) (by decide))).trans (V_of_ne m c main_arg9 (by decide) (by decide)),
      ((h c).2 main_arg10 (Pipeline.mem_restRefs_of main_arg10 (by decide) (by decide))).trans (V_of_ne m c main_arg10 (by decide) (by decide))⟩

/-- The program runs to the end without a fault and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m r h c) (run_main m ρ)

end Cert.Kernel.Hnn

end
-- ==== Proof.KernelIdealEntry.lean ====
/-
  The program up to its one region, and what the region finds in memory.

  Before the region the host joins the three sample columns q, p, F side by side into one [524288, 3] array and
  lays the last table W4 ([128, 1]) as a row [1, 128]; nothing else is written. So when the region is entered each
  argument array still holds what it held at launch, and the two new arrays hold the join and the row.
-/
import proofs.«166184_j10488310137126_2_alg».proof.Proof.Gen.KernelIdeal.Launch
import proofs.«166184_j10488310137126_2_alg».proof.Proof.Gen.KernelIdeal.Points
import Idealize.ShloMosaic.Lib.Pipeline.FrameBody

noncomputable section

namespace Cert.KernelIdeal.Hnn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the region is entered: the launch memory after the join and the re-laying. -/
abbrev V (c : Dev nD) (b : Ref sig .tc) : Buf (Elt F) ((c : Thread nD τ).loc b) :=
  StableHlo.after hostOps0 (fun b => m (c, b)) b

/-- Neither host operation allocates. -/
theorem hostOps0_fresh : (hostOps0 : List (HloOp τ sig (Elt F))).Forall fun op => op.fresh = ∅ := by
  simp only [List.Forall]; repeat' constructor

/-- The program is its two host operations followed by the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is neither the join nor the row is found as launched. -/
theorem V_of_ne (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, Finset.mem_singleton]
    exact ⟨StableHlo.devRef_ne_of_ne h0, StableHlo.devRef_ne_of_ne h1⟩))

end Cert.KernelIdeal.Hnn

end
-- ==== Proof.KernelIdealBody.lean ====
/-
  The body of the region at one grid point, and the run of the whole program.

  A grid point t works on the 4096 samples t·4096 … t·4096+4095. Its body reads the point's block of the joined
  [q | p | F] array and the seven tables, whole; computes, for every sample of the block, the network's hidden rows and
  the gradient of H; and writes the two result columns ∂H/∂p·dt and (−∂H/∂q + F)·dt into the point's [4096, 2] block
  of the result, one column per store. The two stores tile the block, so after the body the block is determined by
  the inputs alone (`out8`), whatever it held before — the body also reads the block's old columns, and discards them.
  The tables' blocks are the whole tables at every point; the sample block moves with the point. From this the
  library's launch theorem gives the run: the program terminates without a fault, the result array ends at the
  blocks the points wrote, and every other array is as the region found it — in particular the arguments are unchanged.
-/
import proofs.«166184_j10488310137126_2_alg».proof.Proof.KernelIdealEntry
import proofs.«166184_j10488310137126_2_alg».proof.Proof.Gen.KernelIdeal.Skeleton
import Idealize.ShloMosaic.Lib.Ring
import Idealize.ShloMosaic.Lib.Tactic

set_option maxRecDepth 16384

noncomputable section

namespace Cert.KernelIdeal.Hnn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not: unfetched, its block
    index has not moved. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, fetched there or not: unfetched, its block
    index has not moved. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, fetched there or not: unfetched, its block
    index has not moved. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every point, fetched there or not: unfetched, its block
    index has not moved. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current buffer holds its block at every point, fetched there or not: unfetched, its block
    index has not moved. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current buffer holds its block at every point, fetched there or not: unfetched, its block
    index has not moved. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current buffer holds its block at every point, fetched there or not: unfetched, its block
    index has not moved. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current buffer holds its block at every point, fetched there or not: unfetched, its block
    index has not moved. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes -/

/-- The whole-buffer rectangles the body loads through. -/
abbrev rin_S4096x3 : Rect S4096x3 := Rect.unit (s := S4096x3) ![0, 0] S4096x3.size inb_S4096x3_S4096x3_0_0
abbrev rin_S2x128 : Rect S2x128 := Rect.unit (s := S2x128) ![0, 0] S2x128.size inb_S2x128_S2x128_0_0
abbrev rin_S128 : Rect S128 := Rect.unit (s := S128) ![0] S128.size inb_S128_S128_0
abbrev rin_S128x128 : Rect S128x128 := Rect.unit (s := S128x128) ![0, 0] S128x128.size inb_S128x128_S128x128_0_0
abbrev rin_S1x128 : Rect S1x128 := Rect.unit (s := S1x128) ![0, 0] S1x128.size inb_S1x128_S1x128_0_0
/-- The two columns of the result block. -/
abbrev rcol0 : Rect S4096x2 := Rect.unit (s := S4096x2) ![0, 0] S4096x1.size inb_S4096x2_S4096x1_0_0
abbrev rcol1 : Rect S4096x2 := Rect.unit (s := S4096x2) ![0, 1] S4096x1.size inb_S4096x2_S4096x1_0_1

/-- Column 0 of the result block, ∂H/∂p · dt, from the loaded vectors. -/
def colP (v0 : Vec F S4096x3 .f32) (v5 : Vec F S2x128 .f32) (v8 : Vec F S128 .f32) (v9 : Vec F S128x128 .f32) (v10 : Vec F S128 .f32)
    (v11 : Vec F S128x128 .f32) (v12 : Vec F S128 .f32) (v13 : Vec F S1x128 .f32) : FVec F S4096x1 .f32 :=
  k0_pay2 (k0_pay7 v5) (k0_pay8 v9) (k0_pay9 v11) (k0_pay10 v0 v5 v8) (k0_pay11 v0 v5 v8 v9 v10) (k0_pay12 v13)
    (k0_pay13 v0 v5 v8 v9 v10 v11 v12) (Scalar.ofBits .f32 0x3F800000#32)

/-- Column 1 of the result block, (−∂H/∂q + F) · dt, from the loaded vectors. -/
def colQ (v0 : Vec F S4096x3 .f32) (v5 : Vec F S2x128 .f32) (v8 : Vec F S128 .f32) (v9 : Vec F S128x128 .f32) (v10 : Vec F S128 .f32)
    (v11 : Vec F S128x128 .f32) (v12 : Vec F S128 .f32) (v13 : Vec F S1x128 .f32) : FVec F S4096x1 .f32 :=
  k0_pay3 (k0_pay5 v0) (k0_pay6 v5) (k0_pay8 v9) (k0_pay9 v11) (k0_pay10 v0 v5 v8) (k0_pay11 v0 v5 v8 v9 v10) (k0_pay12 v13)
    (k0_pay13 v0 v5 v8 v9 v10 v11 v12) (Scalar.ofBits .f32 0x3F800000#32)

/-- The result block after the body, from the input blocks: its two stores as pieces, the later one first. -/
def out8 (x0 : Vec F S4096x3 .f32) (x1 : Vec F S2x128 .f32) (x2 : Vec F S128 .f32) (x3 : Vec F S128x128 .f32) (x4 : Vec F S128 .f32) (x5 : Vec F S128x128 .f32) (x6 : Vec F S128 .f32) (x7 : Vec F S1x128 .f32) : Vec F S4096x2 .f32 :=
  View.canon [⟨rcol1, colQ (View.ld x0 rin_S4096x3) (View.ld x1 rin_S2x128) (View.ld x2 rin_S128) (View.ld x3 rin_S128x128) (View.ld x4 rin_S128) (View.ld x5 rin_S128x128) (View.ld x6 rin_S128) (View.ld x7 rin_S1x128)⟩, ⟨rcol0, colP (View.ld x0 rin_S4096x3) (View.ld x1 rin_S2x128) (View.ld x2 rin_S128) (View.ld x3 rin_S128x128) (View.ld x4 rin_S128) (View.ld x5 rin_S128x128) (View.ld x6 rin_S128) (View.ld x7 rin_S1x128)⟩]

/-- The two columns tile the block. -/
theorem cover8 (p0 p1 : Vec F S4096x1 .f32) (y : S4096x2.Idx) :
    ∃ pc ∈ ([⟨rcol1, p1⟩, ⟨rcol0, p0⟩] : List (View.Piece (Elt F) S4096x2 .f32)), y ∈ pc.1.set :=
  View.cover_of_tiled [⟨rcol1, p1⟩, ⟨rcol0, p0⟩] S4096x1.size (by rfl) y

/-! ## The body's triple -/

set_option maxHeartbeats 4000000 in
/-- The body on whole buffers — the inputs' at contents `x0 … x7`, the result's at anything — runs to the continuation
    holding the inputs' as they were and the result's at `out8` of them. -/
theorem sound_kernel (c : Dev nD) (E : Set ℕ) (i : grid0.Coords) (arg1 : Memref sig .tc .vmem S4096x3 .f32) (harg1 : arg1.IsWhole) (arg2 : Memref sig .tc .vmem S2x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x128 .f32) (harg8 : arg8.IsWhole) (arg9 : Memref sig .tc .vmem S4096x2 .f32) (harg9 : arg9.IsWhole)
    (x0 : Vec F S4096x3 .f32) (x1 : Vec F S2x128 .f32) (x2 : Vec F S128 .f32) (x3 : Vec F S128x128 .f32) (x4 : Vec F S128 .f32) (x5 : Vec F S128x128 .f32) (x6 : Vec F S128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out8 x0 x1 x2 x3 x4 x5 x6 x7)) -∗ K ⟨⟩))
      ⊢ wp frame (wpE (defs₀ (F := F)) Variants.none c none) E (cc0__hnn_kernel i arg1 harg1 arg2 harg2 arg3 harg3 arg4 harg4 arg5 harg5 arg6 harg6 arg7 harg7 arg8 harg8 arg9 harg9) K := by
  simp only [cc0__hnn_kernel_eq_skeleton]; unfold cc0__hnn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover8 _ _)

/-! ## The proof data -/

/-- The region's proof data on core `c`: the arrays as the region finds them; after the body at point `t` each input's
    buffer at its block and the result's at `out8` of the input blocks; nothing carried between points beyond what
    the launch itself keeps; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_out8 (c : Dev nD) (t : Fin cfg0.N) : (dats m 0 c).after 8 t = out8 (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d
theorem before5 (c : Dev nD) (t : Fin cfg0.N) (d) : (dats m 0 c).before 5 t d = iblk m c 5 t :=
  before_in5 m (dats m 0 c) (A_eq m c 5) (after_in5 m c) t d
theorem before6 (c : Dev nD) (t : Fin cfg0.N) (d) : (dats m 0 c).before 6 t d = iblk m c 6 t :=
  before_in6 m (dats m 0 c) (A_eq m c 6) (after_in6 m c) t d
theorem before7 (c : Dev nD) (t : Fin cfg0.N) (d) : (dats m 0 c).before 7 t d = iblk m c 7 t :=
  before_in7 m (dats m 0 c) (A_eq m c 7) (after_in7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the inputs' buffers hold their blocks, so the triple applies; what the launch keeps
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_out8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates without a fault, with the
    result array at what the points wrote back and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- In a state the run may end in, every argument is as launched: a table that a window stages is never written
    back; the others no window touches; and none is written by the host before the region. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_of_ne m c main_arg0 (by decide) (by decide)),
      ((h c).2 main_arg1 (Pipeline.mem_restRefs_of main_arg1 (by decide) (by decide))).trans (V_of_ne m c main_arg1 (by decide) (by decide)),
      ((h c).2 main_arg2 (Pipeline.mem_restRefs_of main_arg2 (by decide) (by decide))).trans (V_of_ne m c main_arg2 (by decide) (by decide)),
      ((h c).1 1).trans ((((dats m 0 c).arrAt_in 1 rfl _).trans (A_eq m c 1)).trans (V_of_ne m c main_arg3 (by decide) (by decide))),
      ((h c).1 2).trans ((((dats m 0 c).arrAt_in 2 rfl _).trans (A_eq m c 2)).trans (V_of_ne m c main_arg4 (by decide) (by decide))),
      ((h c).1 3).trans ((((dats m 0 c).arrAt_in 3 rfl _).trans (A_eq m c 3)).trans (V_of_ne m c main_arg5 (by decide) (by decide))),
      ((h c).1 4).trans ((((dats m 0 c).arrAt_in 4 rfl _).trans (A_eq m c 4)).trans (V_of_ne m c main_arg6 (by decide) (by decide))),
      ((h c).1 5).trans ((((dats m 0 c).arrAt_in 5 rfl _).trans (A_eq m c 5)).trans (V_of_ne m c main_arg7 (by decide) (by decide))),
      ((h c).1 6).trans ((((dats m 0 c).arrAt_in 6 rfl _).trans (A_eq m c 6)).trans (V_of_ne m c main_arg8 (by decide) (by decide))),
      ((h c).2 main_arg9 (Pipeline.mem_restRefs_of main_arg9 (by decide) (by decide))).trans (V_of_ne m c main_arg9 (by decide) (by decide)),
      ((h c).2 main_arg10 (Pipeline.mem_restRefs_of main_arg10 (by decide) (by decide))).trans (V_of_ne m c main_arg10 (by decide) (by decide))⟩

/-- The program runs to the end without a fault and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m r h c) (run_main m ρ)

end Cert.KernelIdeal.Hnn

end
-- ==== Proof.Spec.lean ====
/-
  The function both programs compute, row by row, on the extended reals.

  One sample is a pair (q, p). A three-layer tanh network with tables W1 (2×128), W2, W3 (128×128), W4 (128) and
  biases b1, b2, b3 gives the hidden rows
      h1 = tanh(q·W1[0,·] + p·W1[1,·] + b1),   h2 = tanh(h1·W2 + b2),   h3 = tanh(h2·W3 + b3)
  and the scalar H = h3·W4 (+ a bias that does not matter). Its gradient in (q, p) is taken by the chain rule, layer by
  layer, from the last to the first (tanh' = 1 − tanh²):
      g3 = W4 ⊙ (1 − h3²),   g2 = (g3·W3ᵀ) ⊙ (1 − h2²),   g1 = (g2·W2ᵀ) ⊙ (1 − h1²),
      ∂H/∂q = g1·W1[0,·],    ∂H/∂p = g1·W1[1,·],
  and the result row is (∂H/∂p · dt, (−∂H/∂q + F) · dt): one explicit Euler step of Hamilton's equations with an
  external force F. Everything is written on the extended reals with the exact operations, and `0 − x` for the
  negation as the vector unit spells it.
-/
import Idealize.ShloMosaic.PureOps.Ideal
import Idealize.ShloMosaic.Lib.ValueIdx
import Mathlib.Algebra.BigOperators.Fin

noncomputable section

namespace Cert.Hnn

open Idealize.ShloMosaic Idealize.ShloMosaic.ValueIdx

/-- The network's tables as plain functions of their coordinates. -/
structure Net where
  W1 : Fin 2 → Fin 128 → EReal
  b1 : Fin 128 → EReal
  W2 : Fin 128 → Fin 128 → EReal
  b2 : Fin 128 → EReal
  W3 : Fin 128 → Fin 128 → EReal
  b3 : Fin 128 → EReal
  W4 : Fin 128 → EReal

/-- The tables read off the argument arrays (W4 is a 128×1 column). -/
def netOf (W1 : (⟨2, ![2, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal)
    (W4 : (⟨2, ![128, 1]⟩ : Shape).Idx → EReal) : Net where
  W1 a j := W1 (ix2 a j)
  b1 j := b1 (ix1 j)
  W2 k j := W2 (ix2 k j)
  b2 j := b2 (ix1 j)
  W3 k j := W3 (ix2 k j)
  b3 j := b3 (ix1 j)
  W4 j := W4 (ix2 j (0 : Fin 1))

variable (N : Net) (q p : EReal)

/-- First hidden row: the contraction over the two inputs written out. -/
def h1 (j : Fin 128) : EReal := Ideal.tanh (q * N.W1 0 j + p * N.W1 1 j + N.b1 j)
/-- Second hidden row. -/
def h2 (j : Fin 128) : EReal := Ideal.tanh ((∑ k : Fin 128, h1 N q p k * N.W2 k j) + N.b2 j)
/-- Third hidden row. -/
def h3 (j : Fin 128) : EReal := Ideal.tanh ((∑ k : Fin 128, h2 N q p k * N.W3 k j) + N.b3 j)
/-- The gradient of H in the third layer's pre-activation. -/
def g3 (j : Fin 128) : EReal := N.W4 j * (1 - h3 N q p j * h3 N q p j)
/-- … in the second layer's pre-activation: back through W3 (contracted on its second axis). -/
def g2 (j : Fin 128) : EReal := (∑ k : Fin 128, g3 N q p k * N.W3 j k) * (1 - h2 N q p j * h2 N q p j)
/-- … in the first layer's pre-activation: back through W2. -/
def g1 (j : Fin 128) : EReal := (∑ k : Fin 128, g2 N q p k * N.W2 j k) * (1 - h1 N q p j * h1 N q p j)
/-- ∂H/∂q. -/
def dHdq : EReal := ∑ j : Fin 128, g1 N q p j * N.W1 0 j
/-- ∂H/∂p. -/
def dHdp : EReal := ∑ j : Fin 128, g1 N q p j * N.W1 1 j
/-- The time step, the f32 word both programs carry (0.02 rounded to f32), never evaluated. -/
def dt : EReal := Ideal.ofBits .f32 0x3CA3D70A#32
/-- The result row of one sample with external force `fx`. -/
def out (fx : EReal) (c : Fin 2) : EReal :=
  if c.val = 0 then dHdp N q p * dt else (0 - dHdq N q p + fx) * dt

end Cert.Hnn

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibMatmulNT.lean ====
/-
  A matrix product of an M × K matrix by an N × K matrix contracted on the LAST axis of both operands (the right
  operand taken transposed) into a zero accumulator, read at one entry on the extended reals: entry (i, j) is
  Σ_k lhs (i, k) · rhs (j, k). No rounding and no order of accumulation is left in it.
-/
import Idealize.ShloMosaic.PureOps.Ideal.Laws
import Idealize.ShloMosaic.Lib.ValueIdx

noncomputable section

namespace Cert.MatmulNT

open Idealize.ShloMosaic Idealize.ShloMosaic.ValueIdx

/-- Entry (i, j) of the product of `lhs` (M × K) and the transpose of `rhs` (N × K) accumulated into zeros. -/
theorem matmul_zero_apply (M K N : Nat) {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => rfl
      | ⟨1, _⟩ => exact ((DotDims.transposedRhs M K N).rhsIdx_val_of_single rfl _ _).trans hk)
  rw [el, er]

end Cert.MatmulNT

end
-- ==== Proof.KernelRow.lean ====
/- The kernel's body read at one sample (see the section headings). -/
import proofs.«166184_j10488310137126_2_alg».proof.Proof.Gen.KernelIdeal.Skeleton
import proofs.«166184_j10488310137126_2_alg».proof.Proof.Spec
import proofs.«166184_j10488310137126_2_alg».proof.Proof.LibColRowBroadcast
import proofs.«166184_j10488310137126_2_alg».proof.Proof.LibPlainMatmul
import proofs.«166184_j10488310137126_2_alg».proof.Proof.LibMatmulNT
import Idealize.ShloMosaic.PureOps.Ideal.Laws
import Idealize.ShloMosaic.Lib.Pipeline.Value
import Idealize.ShloMosaic.Lib.ValueIdx
import Idealize.ShloMosaic.Lib.IdealHost

noncomputable section

namespace Cert.KernelIdeal.Row

open Cert.KernelIdeal Cert.KernelIdeal.Gen Idealize.ShloMosaic Idealize.ShloMosaic.ValueIdx Cert.ColRowBroadcast

/-
  One sample of a block, read off the body's arithmetic on the extended reals.

  The body works on a block of 4096 samples at once; every operation in it is either pointwise, a re-laying of a
  table's row or of a sample's column across the block, a product with a 128×128 table (contracting the table's first
  axis on the way forward and its second axis on the way back), or a sum along a sample's 128 lanes. Read at sample
  `y` of the block each of them touches that sample's row only, and the whole body is the specification's row
  function of the sample's three inputs and the tables. Rounding an operand to bf16 before a product is the identity
  here, and a product into a zero accumulator, or a lane sum started from zero, is the plain finite sum.
-/

/-- The network's tables as the body loads them: W1, b1, W2, b2, W3, b3 as given and W4 as a row. -/
def netK (v5 : Vec Ideal S2x128 .f32) (v8 : Vec Ideal S128 .f32) (v9 : Vec Ideal S128x128 .f32) (v10 : Vec Ideal S128 .f32)
    (v11 : Vec Ideal S128x128 .f32) (v12 : Vec Ideal S128 .f32) (v13 : Vec Ideal S1x128 .f32) : Cert.Hnn.Net where
  W1 a j := v5 (ix2 a j)
  b1 j := v8 (ix1 j)
  W2 k j := v9 (ix2 k j)
  b2 j := v10 (ix1 j)
  W3 k j := v11 (ix2 k j)
  b3 j := v12 (ix1 j)
  W4 j := v13 (ix2 (0 : Fin 1) j)

/-! ## The operations that are not pointwise, each at one entry -/

theorem tanh_apply {s : Shape} (a : FVec Ideal s .f32) (i : s.Idx) : tanh a i = Ideal.tanh (a i) := rfl

/-- The three columns of a sample block. -/
theorem slice_c0 (v : FVec Ideal S4096x3 .f32) (y : Fin 4096) (z : Fin 1) :
    extractStridedSlice S4096x1 ![0, 0] v slices_S4096x3_o0_0_S4096x1 (ix2 y z) = v (ix2 y (0 : Fin 3)) :=
  extractStridedSlice_apply _ v _ (ix2 y z) (ix2 y (0 : Fin 3)) (fun a => by
    match a with
    | ⟨0, _⟩ => show y.val = 0 + y.val; omega
    | ⟨1, _⟩ => show (0 : Nat) = 0 + z.val; have := z.isLt; omega)

theorem slice_c1 (v : FVec Ideal S4096x3 .f32) (y : Fin 4096) (z : Fin 1) :
    extractStridedSlice S4096x1 ![0, 1] v slices_S4096x3_o0_1_S4096x1 (ix2 y z) = v (ix2 y (1 : Fin 3)) :=
  extractStridedSlice_apply _ v _ (ix2 y z) (ix2 y (1 : Fin 3)) (fun a => by
    match a with
    | ⟨0, _⟩ => show y.val = 0 + y.val; omega
    | ⟨1, _⟩ => show (1 : Nat) = 1 + z.val; have := z.isLt; omega)

theorem slice_c2 (v : FVec Ideal S4096x3 .f32) (y : Fin 4096) (z : Fin 1) :
    extractStridedSlice S4096x1 ![0, 2] v slices_S4096x3_o0_2_S4096x1 (ix2 y z) = v (ix2 y (2 : Fin 3)) :=
  extractStridedSlice_apply _ v _ (ix2 y z) (ix2 y (2 : Fin 3)) (fun a => by
    match a with
    | ⟨0, _⟩ => show y.val = 0 + y.val; omega
    | ⟨1, _⟩ => show (2 : Nat) = 2 + z.val; have := z.isLt; omega)

/-- The two rows of the first table. -/
theorem slice_r0 (v : FVec Ideal S2x128 .f32) (z : Fin 1) (j : Fin 128) :
    extractStridedSlice S1x128 ![0, 0] v slices_S2x128_o0_0_S1x128 (ix2 z j) = v (ix2 (0 : Fin 2) j) :=
  extractStridedSlice_apply _ v _ (ix2 z j) (ix2 (0 : Fin 2) j) (fun a => by
    match a with
    | ⟨0, _⟩ => show (0 : Nat) = 0 + z.val; have := z.isLt; omega
    | ⟨1, _⟩ => show j.val = 0 + j.val; omega)

theorem slice_r1 (v : FVec Ideal S2x128 .f32) (z : Fin 1) (j : Fin 128) :
    extractStridedSlice S1x128 ![1, 0] v slices_S2x128_o1_0_S1x128 (ix2 z j) = v (ix2 (1 : Fin 2) j) :=
  extractStridedSlice_apply _ v _ (ix2 z j) (ix2 (1 : Fin 2) j) (fun a => by
    match a with
    | ⟨0, _⟩ => show (1 : Nat) = 1 + z.val; have := z.isLt; omega
    | ⟨1, _⟩ => show j.val = 0 + j.val; omega)

/-- A block of rows times a table, contracting the table's first axis. -/
theorem mm_plain (lhs : FVec Ideal S4096x128 .bf16) (rhs : FVec Ideal S128x128 .bf16) (y : Fin 4096) (j : Fin 128) :
    matmul dot_S4096x128_S128x128_S4096x128_1_0_0_1_n_n none lhs rhs (constant S4096x128 .f32 0x00000000#32) (ix2 y j)
      = ∑ k : Fin 128, lhs (ix2 y k) * rhs (ix2 k j) :=
  Cert.PlainMatmul.matmul_zero_apply 4096 128 128 none lhs rhs y j

/-- A block of rows times a table, contracting the table's second axis. -/
theorem mm_nt (lhs : FVec Ideal S4096x128 .bf16) (rhs : FVec Ideal S128x128 .bf16) (y : Fin 4096) (j : Fin 128) :
    matmul dot_S4096x128_S128x128_S4096x128_1_1_0_0_n_n none lhs rhs (constant S4096x128 .f32 0x00000000#32) (ix2 y j)
      = ∑ k : Fin 128, lhs (ix2 y k) * rhs (ix2 j k) :=
  Cert.MatmulNT.matmul_zero_apply 4096 128 128 none lhs rhs y j

/-- A sample's sum along its 128 lanes. -/
theorem laneSum_apply (src : FVec Ideal S4096x128 .f32) (hφ : FKind.Formats .f32)
    (hacc : (0x00000000#32 : BitVec FTy.f32.bits) = FKind.add.neutral .f32 hφ) (y : Fin 4096) :
    multiReduction .add [1] S4096 src 0x00000000#32 reduces_S4096x128_S4096 hφ hacc (ix1 y)
      = ∑ k : Fin 128, src (ix2 y k) := by
  refine (Ideal.multiReduction_add_single src 0x00000000#32 reduces_S4096x128_S4096 hφ hacc (ix1 y)).trans ?_
  refine Finset.sum_congr rfl fun k _ => congrArg src ?_
  funext a
  match a with
  | ⟨0, _⟩ => exact Fin.ext rfl
  | ⟨1, _⟩ => exact Fin.ext rfl

theorem one_word : (Scalar.ofBits .f32 0x3F800000#32 : Ideal .f32) = (1 : EReal) := Ideal.ofBits_one_f32
theorem zero_word : (Scalar.ofBits .f32 0x00000000#32 : Ideal .f32) = (0 : EReal) := Ideal.ofBits_zero_f32
theorem dt_word : (Scalar.ofBits .f32 0x3CA3D70A#32 : Ideal .f32) = Cert.Hnn.dt := rfl

/-! ## The body's named values at sample `y` -/

section
variable (v0 : Vec Ideal S4096x3 .f32) (v5 : Vec Ideal S2x128 .f32) (v8 : Vec Ideal S128 .f32) (v9 : Vec Ideal S128x128 .f32)
  (v10 : Vec Ideal S128 .f32) (v11 : Vec Ideal S128x128 .f32) (v12 : Vec Ideal S128 .f32) (v13 : Vec Ideal S1x128 .f32)
  (y : Fin 4096)

local notation "N" => netK v5 v8 v9 v10 v11 v12 v13
local notation "q" => v0 (ix2 y (0 : Fin 3))
local notation "p" => v0 (ix2 y (1 : Fin 3))

/-- The first hidden row. -/
theorem hid1 (j : Fin 128) : k0_pay10 (F := Ideal) v0 v5 v8 (ix2 y j) = Cert.Hnn.h1 N q p j := by
  unfold k0_pay10 k0_pay4 k0_pay6 k0_pay7
  simp only [tanh_apply, addf_apply, mulf_apply, colBroadcast_apply, rowBroadcast_apply, rowCast_apply, slice_c0, slice_c1, slice_r0, slice_r1, shapeCast_self]
  rfl

/-- The second hidden row. -/
theorem hid2 (j : Fin 128) : k0_pay11 (F := Ideal) v0 v5 v8 v9 v10 (ix2 y j) = Cert.Hnn.h2 N q p j := by
  unfold k0_pay11 k0_pay8
  simp only [tanh_apply, addf_apply, mm_plain, truncf_apply, rowBroadcast_apply, rowCast_apply, hid1 v0 v5 v8 v9 v10 v11 v12 v13 y]
  rfl

/-- The square of the third hidden row. -/
theorem hid3sq (j : Fin 128) :
    k0_pay13 (F := Ideal) v0 v5 v8 v9 v10 v11 v12 (ix2 y j) = Cert.Hnn.h3 N q p j * Cert.Hnn.h3 N q p j := by
  unfold k0_pay13 k0_pay9
  simp only [tanh_apply, addf_apply, mulf_apply, mm_plain, truncf_apply, rowBroadcast_apply, rowCast_apply, hid2 v0 v5 v8 v9 v10 v11 v12 v13 y]
  rfl

/-- The last table, laid across the block. -/
theorem w4row (j : Fin 128) : k0_pay12 (F := Ideal) v13 (ix2 y j) = v13 (ix2 (0 : Fin 1) j) := by
  unfold k0_pay12
  simp only [rowBroadcast_apply, shapeCast_self]

/-- The gradient in the first layer's pre-activation, from any values of the hidden rows. -/
theorem grad1_of (w2 w3 : FVec Ideal S128x128 .bf16) (a1 a2 a4 a3sq : FVec Ideal S4096x128 .f32) (j : Fin 128) :
    k0_pay1 (F := Ideal) w2 w3 a1 a2 a4 a3sq (Scalar.ofBits .f32 0x3F800000#32) (ix2 y j)
      = (∑ k : Fin 128, ((∑ l : Fin 128, (a4 (ix2 y l) * (1 - a3sq (ix2 y l))) * w3 (ix2 k l))
            * (1 - a2 (ix2 y k) * a2 (ix2 y k))) * w2 (ix2 j k)) * (1 - a1 (ix2 y j) * a1 (ix2 y j)) := by
  unfold k0_pay1
  simp only [mulf_apply, subf_apply, broadcast_apply, mm_nt, truncf_apply, one_word]

/-- The gradient in the first layer's pre-activation. -/
theorem grad1 (j : Fin 128) :
    k0_pay1 (F := Ideal) (k0_pay8 v9) (k0_pay9 v11) (k0_pay10 v0 v5 v8) (k0_pay11 v0 v5 v8 v9 v10) (k0_pay12 v13)
        (k0_pay13 v0 v5 v8 v9 v10 v11 v12) (Scalar.ofBits .f32 0x3F800000#32) (ix2 y j)
      = Cert.Hnn.g1 N q p j := by
  rw [grad1_of]
  simp only [hid1 v0 v5 v8 v9 v10 v11 v12 v13 y, hid2 v0 v5 v8 v9 v10 v11 v12 v13 y, hid3sq v0 v5 v8 v9 v10 v11 v12 v13 y, w4row v13 y]
  unfold k0_pay8 k0_pay9
  simp only [truncf_apply]
  rfl

/-- Column 0 of the result block at sample `y`. -/
theorem colP_row (z : Fin 1) :
    k0_pay2 (F := Ideal) (k0_pay7 v5) (k0_pay8 v9) (k0_pay9 v11) (k0_pay10 v0 v5 v8) (k0_pay11 v0 v5 v8 v9 v10) (k0_pay12 v13)
        (k0_pay13 v0 v5 v8 v9 v10 v11 v12) (Scalar.ofBits .f32 0x3F800000#32) (ix2 y z)
      = Cert.Hnn.out N q p (v0 (ix2 y (2 : Fin 3))) (0 : Fin 2) := by
  unfold k0_pay2 k0_pay7
  simp only [mulf_apply, broadcast_apply, colCast_apply, dt_word]
  refine (congrArg (fun s => s * Cert.Hnn.dt) (laneSum_apply _ _ _ y)).trans ?_
  simp only [mulf_apply, rowBroadcast_apply, slice_r1, grad1 v0 v5 v8 v9 v10 v11 v12 v13 y]
  rfl

/-- Column 1 of the result block at sample `y`. -/
theorem colQ_row (z : Fin 1) :
    k0_pay3 (F := Ideal) (k0_pay5 v0) (k0_pay6 v5) (k0_pay8 v9) (k0_pay9 v11) (k0_pay10 v0 v5 v8) (k0_pay11 v0 v5 v8 v9 v10) (k0_pay12 v13)
        (k0_pay13 v0 v5 v8 v9 v10 v11 v12) (Scalar.ofBits .f32 0x3F800000#32) (ix2 y z)
      = Cert.Hnn.out N q p (v0 (ix2 y (2 : Fin 3))) (1 : Fin 2) := by
  unfold k0_pay3 k0_pay5 k0_pay6 k0_pay4
  simp only [mulf_apply, addf_apply, subf_apply, broadcast_apply, colCast_apply, slice_c2, shapeCast_self, dt_word, zero_word]
  refine (congrArg (fun s => (0 - s + v0 (ix2 y (2 : Fin 3))) * Cert.Hnn.dt) (laneSum_apply _ _ _ y)).trans ?_
  simp only [mulf_apply, rowBroadcast_apply, slice_r0, grad1 v0 v5 v8 v9 v10 v11 v12 v13 y]
  rfl

end

end Cert.KernelIdeal.Row

end
-- ==== Proof.KernelIdealFinal.lean ====
/-
  From the points' blocks to the whole result array, on the extended reals.

  Point t writes back rows t·4096 … t·4096+4095 of the result, and the 128 points' blocks tile its 524288 rows. What
  a point writes at sample y of its block is the specification's row function of that sample's three inputs — the
  block of the joined array at (y, 0), (y, 1), (y, 2), that is q, p and F at row t·4096 + y — and of the tables, whose
  blocks are the whole tables at every point (the last one the column W4 laid as a row). So the result array ends,
  row by row, at the specification's row of the arguments.
-/
import proofs.«166184_j10488310137126_2_alg».proof.Proof.KernelIdealBody
import proofs.«166184_j10488310137126_2_alg».proof.Proof.KernelRow
import Idealize.ShloMosaic.Lib.StableHlo.Run

set_option maxRecDepth 16384

noncomputable section

namespace Cert.KernelIdeal.Hnn

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The two arrays the host lays out before the region -/

/-- The joined array is the three sample columns side by side. -/
theorem V_join (c : Dev nD) :
    (V m c main_v0 : S524288x3.Idx → EReal)
      = concatenate S524288x3 1 [⟨S524288x1, (m ((c.tc : Thread nD τ).loc main_arg0))⟩, ⟨S524288x1, (m ((c.tc : Thread nD τ).loc main_arg1))⟩, ⟨S524288x1, (m ((c.tc : Thread nD τ).loc main_arg2))⟩]
          concatenates_S524288x1_S524288x1_S524288x1_S524288x3_d1 := by
  dsimp only [V, hostOps0]; after_results; rfl

/-- The row is the last table transposed. -/
theorem V_row (c : Dev nD) :
    (V m c main_v1 : S1x128.Idx → EReal) = transpose S1x128 [1, 0] (m ((c.tc : Thread nD τ).loc main_arg9)) transposes_S128x1_S1x128_1_0 := by
  dsimp only [V, hostOps0]; after_results

/-- Column 0 of the join is the first operand. -/
theorem join_c0 (a0 a1 a2 : S524288x1.Idx → EReal) (h : Shape.Concatenates [S524288x1, S524288x1, S524288x1] S524288x3 1) (r : Fin 524288) :
    concatenate S524288x3 1 [⟨S524288x1, a0⟩, ⟨S524288x1, a1⟩, ⟨S524288x1, a2⟩] h (ix2 r (0 : Fin 3)) = a0 (ix2 r (0 : Fin 1)) :=
  concatenate_apply_piece 1 [⟨S524288x1, a0⟩, ⟨S524288x1, a1⟩, ⟨S524288x1, a2⟩] h (ix2 r (0 : Fin 3)) 0 (by simp) S524288x1 a0 rfl rfl 0 rfl (ix2 r (0 : Fin 1))
    (fun b hb => by
      match b with
      | ⟨0, _⟩ => rfl
      | ⟨1, _⟩ => exact absurd rfl hb) rfl

/-- Column 1 of the join is the second operand. -/
theorem join_c1 (a0 a1 a2 : S524288x1.Idx → EReal) (h : Shape.Concatenates [S524288x1, S524288x1, S524288x1] S524288x3 1) (r : Fin 524288) :
    concatenate S524288x3 1 [⟨S524288x1, a0⟩, ⟨S524288x1, a1⟩, ⟨S524288x1, a2⟩] h (ix2 r (1 : Fin 3)) = a1 (ix2 r (0 : Fin 1)) :=
  concatenate_apply_piece 1 [⟨S524288x1, a0⟩, ⟨S524288x1, a1⟩, ⟨S524288x1, a2⟩] h (ix2 r (1 : Fin 3)) 1 (by simp) S524288x1 a1 rfl rfl 1 rfl (ix2 r (0 : Fin 1))
    (fun b hb => by
      match b with
      | ⟨0, _⟩ => rfl
      | ⟨1, _⟩ => exact absurd rfl hb) rfl

/-- Column 2 of the join is the third operand. -/
theorem join_c2 (a0 a1 a2 : S524288x1.Idx → EReal) (h : Shape.Concatenates [S524288x1, S524288x1, S524288x1] S524288x3 1) (r : Fin 524288) :
    concatenate S524288x3 1 [⟨S524288x1, a0⟩, ⟨S524288x1, a1⟩, ⟨S524288x1, a2⟩] h (ix2 r (2 : Fin 3)) = a2 (ix2 r (0 : Fin 1)) :=
  concatenate_apply_piece 1 [⟨S524288x1, a0⟩, ⟨S524288x1, a1⟩, ⟨S524288x1, a2⟩] h (ix2 r (2 : Fin 3)) 2 (by simp) S524288x1 a2 rfl rfl 2 rfl (ix2 r (0 : Fin 1))
    (fun b hb => by
      match b with
      | ⟨0, _⟩ => rfl
      | ⟨1, _⟩ => exact absurd rfl hb) rfl

/-- A column laid as a row. -/
theorem row_of_col (w : S128x1.Idx → EReal) (h : S128x1.Transposes [1, 0] S1x128) (j : Fin 128) :
    transpose S1x128 [1, 0] w h (ix2 (0 : Fin 1) j) = w (ix2 j (0 : Fin 1)) :=
  transpose_apply [1, 0] w h (ix2 (0 : Fin 1) j) (ix2 j (0 : Fin 1)) (fun b => by
    match b with
    | ⟨0, _⟩ => rfl
    | ⟨1, _⟩ => rfl)

/-! ## Where each window's block sits -/

/-- The sample window and the result window move with the point along the rows; every table's block is the table. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem N_eq : cfg0.N = 128 := N_0

/-- Sample y of point t's block of the joined array is row t·4096 + y. -/
theorem blk0_apply (c : Dev nD) (t : Fin cfg0.N) (y : Fin 4096) (k : Fin 3) (hr : t.val * 4096 + y.val < 524288) :
    iblk m c 0 t (ix2 y k) = V m c main_v0 (ix2 (⟨t.val * 4096 + y.val, hr⟩ : Fin 524288) k) := by
  show V m c main_v0 (((cfg0.win 0).blk t).view.emb (ix2 y k)) = _
  refine congrArg _ (funext fun a => Fin.ext ?_)
  obtain ⟨e0, e1, -⟩ := idx_facts t
  match a with
  | ⟨0, _⟩ => show win0_0.index t (0 : Fin 2) * 4096 + 1 * y.val = t.val * 4096 + y.val; rw [e0]; omega
  | ⟨1, _⟩ => show win0_0.index t (1 : Fin 2) * 3 + 1 * k.val = k.val; rw [e1]; omega

/-- The tables' blocks are the tables. -/
theorem blk1_apply (c : Dev nD) (t : Fin cfg0.N) (a : Fin 2) (j : Fin 128) : iblk m c 1 t (ix2 a j) = (m ((c.tc : Thread nD τ).loc main_arg3)) (ix2 a j) := by
  show V m c main_arg3 (((cfg0.win 1).blk t).view.emb (ix2 a j)) = _
  rw [V_of_ne m c main_arg3 (by decide) (by decide)]
  refine congrArg _ (funext fun b => Fin.ext ?_)
  obtain ⟨-, -, e0, e1, -⟩ := idx_facts t
  match b with
  | ⟨0, _⟩ => show win0_1.index t (0 : Fin 2) * 2 + 1 * a.val = a.val; rw [e0]; omega
  | ⟨1, _⟩ => show win0_1.index t (1 : Fin 2) * 128 + 1 * j.val = j.val; rw [e1]; omega

theorem blk2_apply (c : Dev nD) (t : Fin cfg0.N) (j : Fin 128) : iblk m c 2 t (ix1 j) = (m ((c.tc : Thread nD τ).loc main_arg4)) (ix1 j) := by
  show V m c main_arg4 (((cfg0.win 2).blk t).view.emb (ix1 j)) = _
  rw [V_of_ne m c main_arg4 (by decide) (by decide)]
  refine congrArg _ (funext fun b => Fin.ext ?_)
  obtain ⟨-, -, -, -, e0, -⟩ := idx_facts t
  match b with
  | ⟨0, _⟩ => show win0_2.index t (0 : Fin 1) * 128 + 1 * j.val = j.val; rw [e0]; omega

theorem blk3_apply (c : Dev nD) (t : Fin cfg0.N) (a : Fin 128) (j : Fin 128) : iblk m c 3 t (ix2 a j) = (m ((c.tc : Thread nD τ).loc main_arg5)) (ix2 a j) := by
  show V m c main_arg5 (((cfg0.win 3).blk t).view.emb (ix2 a j)) = _
  rw [V_of_ne m c main_arg5 (by decide) (by decide)]
  refine congrArg _ (funext fun b => Fin.ext ?_)
  obtain ⟨-, -, -, -, -, e0, e1, -⟩ := idx_facts t
  match b with
  | ⟨0, _⟩ => show win0_3.index t (0 : Fin 2) * 128 + 1 * a.val = a.val; rw [e0]; omega
  | ⟨1, _⟩ => show win0_3.index t (1 : Fin 2) * 128 + 1 * j.val = j.val; rw [e1]; omega

theorem blk4_apply (c : Dev nD) (t : Fin cfg0.N) (j : Fin 128) : iblk m c 4 t (ix1 j) = (m ((c.tc : Thread nD τ).loc main_arg6)) (ix1 j) := by
  show V m c main_arg6 (((cfg0.win 4).blk t).view.emb (ix1 j)) = _
  rw [V_of_ne m c main_arg6 (by decide) (by decide)]
  refine congrArg _ (funext fun b => Fin.ext ?_)
  obtain ⟨-, -, -, -, -, -, -, e0, -⟩ := idx_facts t
  match b with
  | ⟨0, _⟩ => show win0_4.index t (0 : Fin 1) * 128 + 1 * j.val = j.val; rw [e0]; omega

theorem blk5_apply (c : Dev nD) (t : Fin cfg0.N) (a : Fin 128) (j : Fin 128) : iblk m c 5 t (ix2 a j) = (m ((c.tc : Thread nD τ).loc main_arg7)) (ix2 a j) := by
  show V m c main_arg7 (((cfg0.win 5).blk t).view.emb (ix2 a j)) = _
  rw [V_of_ne m c main_arg7 (by decide) (by decide)]
  refine congrArg _ (funext fun b => Fin.ext ?_)
  obtain ⟨-, -, -, -, -, -, -, -, e0, e1, -⟩ := idx_facts t
  match b with
  | ⟨0, _⟩ => show win0_5.index t (0 : Fin 2) * 128 + 1 * a.val = a.val; rw [e0]; omega
  | ⟨1, _⟩ => show win0_5.index t (1 : Fin 2) * 128 + 1 * j.val = j.val; rw [e1]; omega

theorem blk6_apply (c : Dev nD) (t : Fin cfg0.N) (j : Fin 128) : iblk m c 6 t (ix1 j) = (m ((c.tc : Thread nD τ).loc main_arg8)) (ix1 j) := by
  show V m c main_arg8 (((cfg0.win 6).blk t).view.emb (ix1 j)) = _
  rw [V_of_ne m c main_arg8 (by decide) (by decide)]
  refine congrArg _ (funext fun b => Fin.ext ?_)
  obtain ⟨-, -, -, -, -, -, -, -, -, -, e0, -⟩ := idx_facts t
  match b with
  | ⟨0, _⟩ => show win0_6.index t (0 : Fin 1) * 128 + 1 * j.val = j.val; rw [e0]; omega

/-- The row window's block is the last table's column, entry by entry. -/
theorem blk7_apply (c : Dev nD) (t : Fin cfg0.N) (j : Fin 128) : iblk m c 7 t (ix2 (0 : Fin 1) j) = (m ((c.tc : Thread nD τ).loc main_arg9)) (ix2 j (0 : Fin 1)) := by
  show V m c main_v1 (((cfg0.win 7).blk t).view.emb (ix2 (0 : Fin 1) j)) = _
  have e : ((cfg0.win 7).blk t).view.emb (ix2 (0 : Fin 1) j) = (ix2 (0 : Fin 1) j : S1x128.Idx) := by
    refine funext fun b => Fin.ext ?_
    obtain ⟨-, -, -, -, -, -, -, -, -, -, -, e0, e1, -⟩ := idx_facts t
    match b with
    | ⟨0, _⟩ => show win0_7.index t (0 : Fin 2) * 1 + 1 * 0 = 0; rw [e0]
    | ⟨1, _⟩ => show win0_7.index t (1 : Fin 2) * 128 + 1 * j.val = j.val; rw [e1]; omega
  rw [e]
  exact (congrFun (V_row m c) _).trans (row_of_col _ _ j)

/-- So the tables a point loads are the argument tables. -/
theorem net_eq (c : Dev nD) (t : Fin cfg0.N) :
    Row.netK (iblk m c 1 t) (iblk m c 2 t) (iblk m c 3 t) (iblk m c 4 t) (iblk m c 5 t) (iblk m c 6 t) (iblk m c 7 t)
      = Cert.Hnn.netOf (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Row.netK Cert.Hnn.netOf
  congr 1
  · funext a j; exact blk1_apply m c t a j
  · funext j; exact blk2_apply m c t j
  · funext a j; exact blk3_apply m c t a j
  · funext j; exact blk4_apply m c t j
  · funext a j; exact blk5_apply m c t a j
  · funext j; exact blk6_apply m c t j
  · funext j; exact blk7_apply m c t j

/-! ## The result block at a sample -/

theorem hz2 : (![0, 0] : Fin 2 → Nat) = fun _ => 0 := funext fun a => by fin_cases a <;> rfl
theorem hz1 : (![0] : Fin 1 → Nat) = fun _ => 0 := funext fun a => by fin_cases a <;> rfl

/-- The result block at sample y: column 0 is the first stored column there, column 1 the second. -/
theorem out8_apply (x0 : Vec Ideal S4096x3 .f32) (x1 : Vec Ideal S2x128 .f32) (x2 : Vec Ideal S128 .f32) (x3 : Vec Ideal S128x128 .f32)
    (x4 : Vec Ideal S128 .f32) (x5 : Vec Ideal S128x128 .f32) (x6 : Vec Ideal S128 .f32) (x7 : Vec Ideal S1x128 .f32) (y : Fin 4096) (cc : Fin 2) :
    out8 x0 x1 x2 x3 x4 x5 x6 x7 (ix2 y cc)
      = Cert.Hnn.out (Row.netK x1 x2 x3 x4 x5 x6 x7) (x0 (ix2 y (0 : Fin 3))) (x0 (ix2 y (1 : Fin 3))) (x0 (ix2 y (2 : Fin 3))) cc := by
  unfold out8
  simp only [View.ld_unit_zero (S := S4096x3) hz2, View.ld_unit_zero (S := S2x128) hz2, View.ld_unit_zero (S := S128) hz1,
    View.ld_unit_zero (S := S128x128) hz2, View.ld_unit_zero (S := S1x128) hz2]
  match cc with
  | ⟨0, _⟩ =>
    have e0 : (ix2 y (⟨0, by decide⟩ : Fin 2) : S4096x2.Idx) = rcol0.emb (ix2 y (0 : Fin 1)) := by
      refine funext fun a => Fin.ext ?_
      rw [Rect.emb_apply]
      match a with
      | ⟨0, _⟩ => show y.val = 0 + 1 * y.val; omega
      | ⟨1, _⟩ => show (0 : Nat) = 0 + 1 * 0; rfl
    have hn : (ix2 y (⟨0, by decide⟩ : Fin 2) : S4096x2.Idx) ∉ rcol1.set := by
      rw [Rect.mem_set_unit]
      intro h
      have h1 : (1 : Nat) ≤ 0 := (h (1 : Fin 2)).1
      omega
    refine (View.canon_cons_of_not_mem (⟨rcol1, colQ x0 x1 x2 x3 x4 x5 x6 x7⟩ : View.Piece (Elt Ideal) S4096x2 .f32)
      [⟨rcol0, colP x0 x1 x2 x3 x4 x5 x6 x7⟩] hn).trans ?_
    refine ((congrArg _ e0).trans (View.canon_cons_emb rcol0 _ [] (ix2 y (0 : Fin 1)))).trans ?_
    unfold colP
    exact Row.colP_row x0 x1 x2 x3 x4 x5 x6 x7 y 0
  | ⟨1, _⟩ =>
    have e1 : (ix2 y (⟨1, by decide⟩ : Fin 2) : S4096x2.Idx) = rcol1.emb (ix2 y (0 : Fin 1)) := by
      refine funext fun a => Fin.ext ?_
      rw [Rect.emb_apply]
      match a with
      | ⟨0, _⟩ => show y.val = 0 + 1 * y.val; omega
      | ⟨1, _⟩ => show (1 : Nat) = 1 + 1 * 0; rfl
    refine ((congrArg _ e1).trans (View.canon_cons_emb rcol1 _ _ (ix2 y (0 : Fin 1)))).trans ?_
    unfold colQ
    exact Row.colQ_row x0 x1 x2 x3 x4 x5 x6 x7 y 0

/-! ## The whole result -/

/-- The result array the program ends with: row r is the specification's row of sample r. -/
def G (c : Dev nD) : S524288x2.Idx → EReal := fun i =>
  Cert.Hnn.out (Cert.Hnn.netOf (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
    ((m ((c.tc : Thread nD τ).loc main_arg0)) (ix2 (⟨(i 0).val, idx2_lt0 i⟩ : Fin 524288) (0 : Fin 1)))
    ((m ((c.tc : Thread nD τ).loc main_arg1)) (ix2 (⟨(i 0).val, idx2_lt0 i⟩ : Fin 524288) (0 : Fin 1)))
    ((m ((c.tc : Thread nD τ).loc main_arg2)) (ix2 (⟨(i 0).val, idx2_lt0 i⟩ : Fin 524288) (0 : Fin 1)))
    (⟨(i 1).val, idx2_lt1 i⟩ : Fin 2)

/-- Sample y of point t's result block is row t·4096 + y of `G`. -/
theorem flushed_at (c : Dev nD) (t : Fin cfg0.N) (y : Fin 4096) (cc : Fin 2) (hr : t.val * 4096 + y.val < 524288) :
    out8 (iblk m c 0 t) (iblk m c 1 t) (iblk m c 2 t) (iblk m c 3 t) (iblk m c 4 t) (iblk m c 5 t) (iblk m c 6 t) (iblk m c 7 t) (ix2 y cc)
      = G m c (ix2 (⟨t.val * 4096 + y.val, hr⟩ : Fin 524288) cc) := by
  rw [out8_apply, net_eq, blk0_apply m c t y 0 hr, blk0_apply m c t y 1 hr, blk0_apply m c t y 2 hr,
    congrFun (V_join m c) _, congrFun (V_join m c) _, congrFun (V_join m c) _, join_c0, join_c1, join_c2]
  rfl

/-- What point t writes back is block t of `G`. -/
theorem flushed8_eq (c : Dev nD) (t : Fin cfg0.N) :
    (dats m 0 c).flushed 8 t = ((cfg0.win 8).blk t).view.read (Elt Ideal) (G m c) := by
  show (cfg0.win 8).cut (grid0.coords t) ((dats m 0 c).after 8 t) = _
  rw [after_out8]
  funext j
  have ht : t.val < 128 := lt_of_lt_of_eq t.isLt N_eq
  have hy : (j 0).val < 4096 := (j 0).isLt
  have hc : (j 1).val < 2 := (j 1).isLt
  have hr : t.val * 4096 + (j 0).val < 524288 := by omega
  have ej : j = (ix2 (⟨(j 0).val, hy⟩ : Fin 4096) (⟨(j 1).val, hc⟩ : Fin 2) : S4096x2.Idx) :=
    funext fun a => by match a with | ⟨0, _⟩ => rfl | ⟨1, _⟩ => rfl
  obtain ⟨-, -, -, -, -, -, -, -, -, -, -, -, -, e0, e1⟩ := idx_facts t
  have eemb : ((cfg0.win 8).blk t).view.emb j = (ix2 (⟨t.val * 4096 + (j 0).val, hr⟩ : Fin 524288) (⟨(j 1).val, hc⟩ : Fin 2) : S524288x2.Idx) := by
    refine funext fun a => Fin.ext ?_
    match a with
    | ⟨0, _⟩ => show win0_8.index t (0 : Fin 2) * 4096 + 1 * (j 0).val = t.val * 4096 + (j 0).val; rw [e0]; omega
    | ⟨1, _⟩ => show win0_8.index t (1 : Fin 2) * 2 + 1 * (j 1).val = (j 1).val; rw [e1]; omega
  show out8 (iblk m c 0 t) (iblk m c 1 t) (iblk m c 2 t) (iblk m c 3 t) (iblk m c 4 t) (iblk m c 5 t) (iblk m c 6 t) (iblk m c 7 t) j
    = G m c (((cfg0.win 8).blk t).view.emb j)
  exact (congrArg (out8 (iblk m c 0 t) (iblk m c 1 t) (iblk m c 2 t) (iblk m c 3 t) (iblk m c 4 t) (iblk m c 5 t) (iblk m c 6 t) (iblk m c 7 t)) ej).trans
    ((flushed_at m c t ⟨(j 0).val, hy⟩ ⟨(j 1).val, hc⟩ hr).trans (congrArg (G m c) eemb.symm))

/-- A row is in point t's block iff it lies in the block's range of rows. -/
theorem mem_blk8 (t : Fin cfg0.N) (i : S524288x2.Idx) :
    i ∈ ((cfg0.win 8).blk t).view.set ↔ ∀ a : Fin 2, win0_8.index t a * S4096x2.size a ≤ (i a).val ∧ (i a).val < win0_8.index t a * S4096x2.size a + S4096x2.size a := by
  show i ∈ ((View.whole main_v2).slice (win0_8.rect t)).set ↔ _
  rw [View.set_slice_whole, Rect.mem_set_unit]
  exact Iff.rfl

/-- Every row is in the block of the point r / 4096. -/
theorem cover_rows (i : S524288x2.Idx) : ∃ t : Fin cfg0.N, (cfg0.win 8).flush t = true ∧ i ∈ ((cfg0.win 8).blk t).view.set := by
  have hi0 : (i 0).val < 524288 := (i 0).isLt
  have hi1 : (i 1).val < 2 := (i 1).isLt
  have hN : (i 0).val / 4096 < cfg0.N := by rw [N_eq]; omega
  refine ⟨⟨(i 0).val / 4096, hN⟩, flush0_8 _, ?_⟩
  rw [mem_blk8]
  obtain ⟨-, -, -, -, -, -, -, -, -, -, -, -, -, e0, e1⟩ := idx_facts ⟨(i 0).val / 4096, hN⟩
  intro a
  match a with
  | ⟨0, _⟩ =>
    show win0_8.index ⟨(i 0).val / 4096, hN⟩ (0 : Fin 2) * 4096 ≤ (i 0).val ∧ (i 0).val < win0_8.index ⟨(i 0).val / 4096, hN⟩ (0 : Fin 2) * 4096 + 4096
    rw [e0]; show (i 0).val / 4096 * 4096 ≤ (i 0).val ∧ (i 0).val < (i 0).val / 4096 * 4096 + 4096; omega
  | ⟨1, _⟩ =>
    show win0_8.index ⟨(i 0).val / 4096, hN⟩ (1 : Fin 2) * 2 ≤ (i 1).val ∧ (i 1).val < win0_8.index ⟨(i 0).val / 4096, hN⟩ (1 : Fin 2) * 2 + 2
    rw [e1]; omega

/-- The result array after the run. -/
theorem final8 (c : Dev nD) : (dats m 0 c).arrAt 8 cfg0.N = G m c :=
  (dats m 0 c).arrAt_eq_of_cover 8 (G m c) (fun t _ => flushed8_eq m c t) cover_rows

/-- The run, read: the result array ends at `G` and the arguments are unchanged. -/
theorem run_value : θ_run defs (onTc (τ := τ) (main (F := Ideal))) ⟨m, fun _ => 0, ρ⟩ (fun r => ∀ c : Dev nD,
      r.2.mem ((c.tc : Thread nD τ).loc main_v2) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1 8).trans (final8 m c), args_kept m r h c⟩) (run_main m ρ)

end Cert.KernelIdeal.Hnn

end
-- ==== Proof.RefRowFwd.lean ====
/-
  The reference program's forward pass, read at one sample row.

  The program joins the two input columns q and p into a row (q, p), and applies three layers
  h ↦ tanh(h·W + b). Read at row r and hidden column j, the three results are the specification's
  rows h1, h2, h3 of the sample (q r, p r): the first contraction is a sum over the two joined
  columns, written out; the other two are sums over the 128 hidden columns, term by term.
-/
import proofs.«166184_j10488310137126_2_alg».proof.Proof.Gen.ReferenceIdeal.Read
import proofs.«166184_j10488310137126_2_alg».proof.Proof.Spec

noncomputable section

namespace Cert.Hnn.Ref

open Cert.ReferenceIdeal Cert.ReferenceIdeal.Read Idealize.ShloMosaic Idealize.ShloMosaic.ValueIdx

variable (x0 x1 x2 : (⟨S524288x1, .f32⟩ : BufTy).Contents (Elt Ideal)) (x3 : (⟨S2x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal)) (x9 : (⟨S128x1, .f32⟩ : BufTy).Contents (Elt Ideal))
  (r : Fin 524288)

/-- The joined row at column 0 is the sample's q. -/
theorem joined_at0 : val_main_v0 (F := Ideal) x0 x1 (ix2 r (0 : Fin 2)) = x0 (ix2 r (0 : Fin 1)) := by
  unfold val_main_v0
  exact concatenate_pair_apply_left (t := S524288x2) (s₁ := S524288x1) (s₂ := S524288x1) (1 : Fin 2) x0 x1 _
    (ix2 r (0 : Fin 2)) rfl (ix2 r (0 : Fin 1)) (fun b => by match b with | ⟨0, _⟩ => rfl | ⟨1, _⟩ => rfl)

/-- The joined row at column 1 is the sample's p. -/
theorem joined_at1 : val_main_v0 (F := Ideal) x0 x1 (ix2 r (1 : Fin 2)) = x1 (ix2 r (0 : Fin 1)) := by
  unfold val_main_v0
  exact concatenate_pair_apply_right (t := S524288x2) (s₁ := S524288x1) (s₂ := S524288x1) (1 : Fin 2) x0 x1 _
    (ix2 r (1 : Fin 2)) rfl rfl (ix2 r (0 : Fin 1))
    (fun b hb => by match b, hb with | ⟨0, _⟩, _ => rfl | ⟨1, _⟩, hb => exact absurd rfl hb) rfl

/-- The first layer at (r, j) is the specification's h1. -/
theorem layer1_at (j : Fin 128) :
    val_main_v5 (F := Ideal) x0 x1 x3 x4 (ix2 r j)
      = h1 (netOf x3 x4 x5 x6 x7 x8 x9) (x0 (ix2 r (0 : Fin 1))) (x1 (ix2 r (0 : Fin 1))) j := by
  have el0 : lidx_main_v1 (ix2 r j) (0 : Fin 2) = ix2 r (0 : Fin 2) :=
    funext fun a => Fin.ext (by match a with | ⟨0, _⟩ => rfl | ⟨1, _⟩ => rfl)
  have el1 : lidx_main_v1 (ix2 r j) (1 : Fin 2) = ix2 r (1 : Fin 2) :=
    funext fun a => Fin.ext (by match a with | ⟨0, _⟩ => rfl | ⟨1, _⟩ => rfl)
  have er0 : ridx_main_v1 (ix2 r j) (0 : Fin 2) = ix2 (0 : Fin 2) j :=
    funext fun a => Fin.ext (by match a with | ⟨0, _⟩ => rfl | ⟨1, _⟩ => rfl)
  have er1 : ridx_main_v1 (ix2 r j) (1 : Fin 2) = ix2 (1 : Fin 2) j :=
    funext fun a => Fin.ext (by match a with | ⟨0, _⟩ => rfl | ⟨1, _⟩ => rfl)
  have eb : idx_main_v2 (idx_main_v3 (ix2 r j)) = ix1 j :=
    funext fun a => Fin.ext (by match a with | ⟨0, _⟩ => rfl)
  rw [val_main_v5_apply, val_main_v4_apply, val_main_v1_apply, val_main_v3_apply, val_main_v2_apply,
    Fin.sum_univ_two, el0, el1, er0, er1, eb, joined_at0, joined_at1]
  simp only [Ideal.hostUnary_tanh_def, Ideal.addf_def]
  rfl

/-- The second layer at (r, j) is the specification's h2. -/
theorem layer2_at (j : Fin 128) :
    val_main_v12 (F := Ideal) x0 x1 x3 x4 x5 x6 (ix2 r j)
      = h2 (netOf x3 x4 x5 x6 x7 x8 x9) (x0 (ix2 r (0 : Fin 1))) (x1 (ix2 r (0 : Fin 1))) j := by
  have el : ∀ k : Fin 128, lidx_main_v8 (ix2 r j) k = ix2 r k := fun k =>
    funext fun a => Fin.ext (by match a with | ⟨0, _⟩ => rfl | ⟨1, _⟩ => rfl)
  have er : ∀ k : Fin 128, ridx_main_v8 (ix2 r j) k = ix2 k j := fun k =>
    funext fun a => Fin.ext (by match a with | ⟨0, _⟩ => rfl | ⟨1, _⟩ => rfl)
  have eb : idx_main_v9 (idx_main_v10 (ix2 r j)) = ix1 j :=
    funext fun a => Fin.ext (by match a with | ⟨0, _⟩ => rfl)
  rw [val_main_v12_apply, val_main_v11_apply, val_main_v8_apply, val_main_v10_apply, val_main_v9_apply, eb]
  simp only [el, er, layer1_at x0 x1 x3 x4 x5 x6 x7 x8 x9 r, Ideal.hostUnary_tanh_def, Ideal.addf_def]
  rfl

/-- The third layer at (r, j) is the specification's h3. -/
theorem layer3_at (j : Fin 128) :
    val_main_v19 (F := Ideal) x0 x1 x3 x4 x5 x6 x7 x8 (ix2 r j)
      = h3 (netOf x3 x4 x5 x6 x7 x8 x9) (x0 (ix2 r (0 : Fin 1))) (x1 (ix2 r (0 : Fin 1))) j := by
  have el : ∀ k : Fin 128, lidx_main_v15 (ix2 r j) k = ix2 r k := fun k =>
    funext fun a => Fin.ext (by match a with | ⟨0, _⟩ => rfl | ⟨1, _⟩ => rfl)
  have er : ∀ k : Fin 128, ridx_main_v15 (ix2 r j) k = ix2 k j := fun k =>
    funext fun a => Fin.ext (by match a with | ⟨0, _⟩ => rfl | ⟨1, _⟩ => rfl)
  have eb : idx_main_v16 (idx_main_v17 (ix2 r j)) = ix1 j :=
    funext fun a => Fin.ext (by match a with | ⟨0, _⟩ => rfl)
  rw [val_main_v19_apply, val_main_v18_apply, val_main_v15_apply, val_main_v17_apply, val_main_v16_apply, eb]
  simp only [el, er, layer2_at x0 x1 x3 x4 x5 x6 x7 x8 x9 r, Ideal.hostUnary_tanh_def, Ideal.addf_def]
  rfl

end Cert.Hnn.Ref

end
-- ==== Proof.LibRealEntries.lean ====
/-
  Entries that are real numbers, on the extended reals.

  An extended real is REAL when it is neither +∞ nor −∞. Sums, products and maxima of real entries are real, a finite
  sum of real entries is real, and so is the greatest entry of a nonempty finite row of real entries (the fold of `max`
  from −∞). The one law of subtraction used with it: taking away `m + L` is taking away `m` and then `L`, as soon as `m`
  is real, whatever `L` and the minuend are — at an infinite `m` the two sides differ.
-/
import Idealize.ShloMosaic.PureOps.Ideal
import Mathlib.Data.Finset.Fold

noncomputable section

open scoped BigOperators

namespace Cert.LibRealEntries

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_of_ne {x : EReal} (h1 : x ≠ ⊥) (h2 : x ≠ ⊤) : IsReal x := by
  induction x using EReal.rec with
  | bot => exact absurd rfl h1
  | coe r => exact ⟨r, rfl⟩
  | top => exact absurd rfl h2

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) : IsReal (if p then x else y) := by
  split <;> assumption

/-- A finite sum of real entries is real. -/
theorem isReal_sum {ι : Type} (s : Finset ι) (f : ι → EReal) (h : ∀ i ∈ s, IsReal (f i)) : IsReal (∑ i ∈ s, f i) :=
  Finset.sum_induction f IsReal (fun _ _ ha hb => ha.add hb) isReal_zero h

/-- The greatest entry of a nonempty finite row of real entries, folded from −∞, is real. -/
theorem isReal_fold_max {ι : Type} (s : Finset ι) (f : ι → EReal) (hne : s.Nonempty) (h : ∀ i ∈ s, IsReal (f i)) :
    IsReal (s.fold max (⊥ : EReal) f) := by
  refine isReal_of_ne ?_ ?_
  · obtain ⟨i, hi⟩ := hne
    intro hb
    have hle : f i ≤ s.fold max (⊥ : EReal) f := (Finset.le_fold_max _).mpr (Or.inr ⟨i, hi, le_rfl⟩)
    rw [hb] at hle
    exact (h i hi).ne_bot (le_bot_iff.mp hle)
  · have hlt : s.fold max (⊥ : EReal) f < ⊤ :=
      (Finset.fold_max_lt _).mpr ⟨bot_lt_top, fun i hi => lt_top_iff_ne_top.mpr (h i hi).ne_top⟩
    exact hlt.ne

/-- Taking away `m + L` is taking away `m`, then `L`, when `m` is real. -/
theorem sub_add_of_isReal {m : EReal} (hm : IsReal m) (x L : EReal) : x - (m + L) = x - m - L := by
  obtain ⟨r, rfl⟩ := hm
  rw [sub_eq_add_neg, EReal.neg_add (Or.inl (EReal.coe_ne_bot r)) (Or.inl (EReal.coe_ne_top r)),
    sub_eq_add_neg (-(r : EReal)) L, ← add_assoc, ← sub_eq_add_neg, ← sub_eq_add_neg]

end Cert.LibRealEntries

end
-- ==== Proof.LibTanhRule.lean ====
/-
  The derivative of tanh on the extended reals, as a differentiated program carries it.

  tanh of any extended real is a real number (−1 and 1 at the two infinities), so a hidden layer h = tanh(·) is real
  whatever its input, and so is the derivative factor 1 − h·h. Automatic differentiation writes the cotangent of a tanh
  layer as u + u·h with u = g·(1 − h); a hand-derived backward pass writes g·(1 − h·h). For a REAL incoming cotangent g
  and real h the two are one polynomial identity. At an infinite g they differ (∞·(1 − h) + ∞·(1 − h)·h is −∞ for
  −1 < h < 0 while ∞·(1 − h·h) is ∞), so the rule is stated for reals only.
-/
import proofs.«166184_j10488310137126_2_alg».proof.Proof.LibRealEntries
import Idealize.ShloMosaic.PureOps.Ideal

noncomputable section

namespace Cert.TanhRule

open Idealize.ShloMosaic Cert.LibRealEntries

/-- tanh of any extended real is a real number (−1 and 1 at the two infinities). -/
theorem isReal_tanh (x : EReal) : IsReal (Ideal.tanh x) := by
  induction x using EReal.rec with
  | bot => exact ⟨-1, by rw [Ideal.tanh_bot, EReal.coe_neg, EReal.coe_one]⟩
  | coe t => exact ⟨Real.tanh t, rfl⟩
  | top => exact ⟨1, by rw [Ideal.tanh_top, EReal.coe_one]⟩

theorem isReal_one : IsReal (1 : EReal) := ⟨1, EReal.coe_one.symm⟩

theorem isReal_sub {x y : EReal} (hx : IsReal x) (hy : IsReal y) : IsReal (x - y) := by
  obtain ⟨a, rfl⟩ := hx; obtain ⟨b, rfl⟩ := hy
  exact ⟨a - b, (EReal.coe_sub a b).symm⟩

/-- The derivative factor 1 − h·h of a real h is real. -/
theorem isReal_dtanh {h : EReal} (hh : IsReal h) : IsReal (1 - h * h) := isReal_sub isReal_one (hh.mul hh)

/-- The rule for tanh as the differentiated program carries it, against the closed form, at real g and h. -/
theorem tanh_rule {g h : EReal} (hg : IsReal g) (hh : IsReal h) :
    g * (1 - h) + g * (1 - h) * h = g * (1 - h * h) := by
  obtain ⟨a, rfl⟩ := hg; obtain ⟨b, rfl⟩ := hh
  have e : a * (1 - b) + a * (1 - b) * b = a * (1 - b * b) := by ring
  exact_mod_cast congrArg (fun t : ℝ => (t : EReal)) e

end Cert.TanhRule

end
-- ==== Proof.RefRowBwd.lean ====
/-
  The reference program's backward pass, read at one sample row.

  The differentiated program carries the rule for tanh in the form u = g·(1 − h), u + u·h, where the
  specification writes g·(1 − h·h). For REAL g and h the two agree (a polynomial identity); at an
  infinite g they do not, so each layer's cotangent has to be shown real before the rule is used.
  tanh of any extended real is real, so the hidden rows are; the last table W4 real makes the third
  layer's cotangent real; W3 real then makes its contraction with W3 a finite sum of products of reals,
  hence real; W2 likewise. Nothing is asked of the first table, the biases, or the sample itself.
-/
import proofs.«166184_j10488310137126_2_alg».proof.Proof.RefRowFwd
import proofs.«166184_j10488310137126_2_alg».proof.Proof.LibRealEntries
import proofs.«166184_j10488310137126_2_alg».proof.Proof.LibTanhRule
import Idealize.ShloMosaic.Lib.IdealHost

noncomputable section

namespace Cert.Hnn.Ref

open Cert.ReferenceIdeal Cert.ReferenceIdeal.Read Idealize.ShloMosaic Idealize.ShloMosaic.ValueIdx Cert.LibRealEntries Cert.TanhRule

/-! ## Real entries -/

section Net
variable (N : Net) (q p : EReal)

theorem isReal_h1 (j : Fin 128) : IsReal (h1 N q p j) := isReal_tanh _
theorem isReal_h2 (j : Fin 128) : IsReal (h2 N q p j) := isReal_tanh _
theorem isReal_h3 (j : Fin 128) : IsReal (h3 N q p j) := isReal_tanh _

/-- The third layer's cotangent is real when the last table is. -/
theorem isReal_g3 (h4 : ∀ j, IsReal (N.W4 j)) (j : Fin 128) : IsReal (g3 N q p j) :=
  (h4 j).mul (isReal_dtanh (isReal_h3 N q p j))

/-- The third layer's cotangent carried back through a real W3 is real. -/
theorem isReal_back3 (h4 : ∀ j, IsReal (N.W4 j)) (h3 : ∀ j k, IsReal (N.W3 j k)) (j : Fin 128) :
    IsReal (∑ k : Fin 128, g3 N q p k * N.W3 j k) :=
  isReal_sum _ _ fun k _ => (isReal_g3 N q p h4 k).mul (h3 j k)

/-- The second layer's cotangent is real when the last two tables are. -/
theorem isReal_g2 (h4 : ∀ j, IsReal (N.W4 j)) (h3 : ∀ j k, IsReal (N.W3 j k)) (j : Fin 128) : IsReal (g2 N q p j) :=
  (isReal_back3 N q p h4 h3 j).mul (isReal_dtanh (isReal_h2 N q p j))

/-- The second layer's cotangent carried back through a real W2 is real. -/
theorem isReal_back2 (h4 : ∀ j, IsReal (N.W4 j)) (h3 : ∀ j k, IsReal (N.W3 j k)) (h2 : ∀ j k, IsReal (N.W2 j k))
    (j : Fin 128) : IsReal (∑ k : Fin 128, g2 N q p k * N.W2 j k) :=
  isReal_sum _ _ fun k _ => (isReal_g2 N q p h4 h3 k).mul (h2 j k)

end Net

/-! ## The backward operations at (r, j) -/

variable (x0 x1 x2 : (⟨S524288x1, .f32⟩ : BufTy).Contents (Elt Ideal)) (x3 : (⟨S2x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal)) (x9 : (⟨S128x1, .f32⟩ : BufTy).Contents (Elt Ideal))
  (r : Fin 524288)

/-- The cotangent entering the third layer: the constant 1 contracted with W4's unit axis is W4 itself. -/
theorem seed_at (j : Fin 128) : val_main_v28 (F := Ideal) x9 (ix2 r j) = x9 (ix2 j (0 : Fin 1)) := by
  have er : ridx_main_v28 (ix2 r j) (0 : Fin 1) = ix2 j (0 : Fin 1) := funext fun a => Fin.ext (by match a with | ⟨0, _⟩ => rfl | ⟨1, _⟩ => rfl)
  rw [val_main_v28_apply, Fin.sum_univ_one, val_main_v27_apply, val_main_cst_3_apply, er, Ideal.ofBits_def,
    Ideal.ofBits_one_f32, one_mul]

/-- 1 − h3 at (r, j). -/
theorem one_sub3_at (j : Fin 128) :
    val_main_v21 (F := Ideal) x0 x1 x3 x4 x5 x6 x7 x8 (ix2 r j) = 1 - h3 (netOf x3 x4 x5 x6 x7 x8 x9) (x0 (ix2 r (0 : Fin 1))) (x1 (ix2 r (0 : Fin 1))) j := by
  rw [val_main_v21_apply, val_main_v20_apply, val_main_cst_1_apply, layer3_at x0 x1 x3 x4 x5 x6 x7 x8 x9 r, Ideal.subf_def,
    Ideal.ofBits_def, Ideal.ofBits_one_f32]

/-- 1 − h2 at (r, j). -/
theorem one_sub2_at (j : Fin 128) :
    val_main_v14 (F := Ideal) x0 x1 x3 x4 x5 x6 (ix2 r j) = 1 - h2 (netOf x3 x4 x5 x6 x7 x8 x9) (x0 (ix2 r (0 : Fin 1))) (x1 (ix2 r (0 : Fin 1))) j := by
  rw [val_main_v14_apply, val_main_v13_apply, val_main_cst_0_apply, layer2_at x0 x1 x3 x4 x5 x6 x7 x8 x9 r, Ideal.subf_def,
    Ideal.ofBits_def, Ideal.ofBits_one_f32]

/-- 1 − h1 at (r, j). -/
theorem one_sub1_at (j : Fin 128) :
    val_main_v7 (F := Ideal) x0 x1 x3 x4 (ix2 r j) = 1 - h1 (netOf x3 x4 x5 x6 x7 x8 x9) (x0 (ix2 r (0 : Fin 1))) (x1 (ix2 r (0 : Fin 1))) j := by
  rw [val_main_v7_apply, val_main_v6_apply, val_main_cst_apply, layer1_at x0 x1 x3 x4 x5 x6 x7 x8 x9 r, Ideal.subf_def,
    Ideal.ofBits_def, Ideal.ofBits_one_f32]

variable (hW2 : ∀ i, IsReal (x5 i)) (hW3 : ∀ i, IsReal (x7 i)) (hW4 : ∀ i, IsReal (x9 i))
include hW4

/-- The third layer's cotangent at (r, j) is the specification's g3. -/
theorem grad3_at (j : Fin 128) :
    val_main_v31 (F := Ideal) x0 x1 x3 x4 x5 x6 x7 x8 x9 (ix2 r j) = g3 (netOf x3 x4 x5 x6 x7 x8 x9) (x0 (ix2 r (0 : Fin 1))) (x1 (ix2 r (0 : Fin 1))) j := by
  rw [val_main_v31_apply, val_main_v30_apply, val_main_v29_apply, seed_at, one_sub3_at x0 x1 x3 x4 x5 x6 x7 x8 x9 r,
    layer3_at x0 x1 x3 x4 x5 x6 x7 x8 x9 r]
  simp only [Ideal.mulf_def, Ideal.addf_def]
  exact tanh_rule (hW4 _) (isReal_h3 _ _ _ j)

include hW3

/-- The second layer's cotangent at (r, j) is the specification's g2. -/
theorem grad2_at (j : Fin 128) :
    val_main_v35 (F := Ideal) x0 x1 x3 x4 x5 x6 x7 x8 x9 (ix2 r j) = g2 (netOf x3 x4 x5 x6 x7 x8 x9) (x0 (ix2 r (0 : Fin 1))) (x1 (ix2 r (0 : Fin 1))) j := by
  have el : ∀ k : Fin 128, lidx_main_v32 (ix2 r j) k = ix2 r k := fun k => funext fun a => Fin.ext (by match a with | ⟨0, _⟩ => rfl | ⟨1, _⟩ => rfl)
  have er : ∀ k : Fin 128, ridx_main_v32 (ix2 r j) k = ix2 j k := fun k => funext fun a => Fin.ext (by match a with | ⟨0, _⟩ => rfl | ⟨1, _⟩ => rfl)
  rw [val_main_v35_apply, val_main_v34_apply, val_main_v33_apply, val_main_v32_apply, one_sub2_at x0 x1 x3 x4 x5 x6 x7 x8 x9 r,
    layer2_at x0 x1 x3 x4 x5 x6 x7 x8 x9 r]
  simp only [el, er, grad3_at x0 x1 x3 x4 x5 x6 x7 x8 x9 r hW4, Ideal.mulf_def, Ideal.addf_def]
  exact tanh_rule (isReal_back3 (netOf x3 x4 x5 x6 x7 x8 x9) _ _ (fun j => hW4 _) (fun j k => hW3 _) j) (isReal_h2 _ _ _ j)

include hW2

/-- The first layer's cotangent at (r, j) is the specification's g1. -/
theorem grad1_at (j : Fin 128) :
    val_main_v39 (F := Ideal) x0 x1 x3 x4 x5 x6 x7 x8 x9 (ix2 r j) = g1 (netOf x3 x4 x5 x6 x7 x8 x9) (x0 (ix2 r (0 : Fin 1))) (x1 (ix2 r (0 : Fin 1))) j := by
  have el : ∀ k : Fin 128, lidx_main_v36 (ix2 r j) k = ix2 r k := fun k => funext fun a => Fin.ext (by match a with | ⟨0, _⟩ => rfl | ⟨1, _⟩ => rfl)
  have er : ∀ k : Fin 128, ridx_main_v36 (ix2 r j) k = ix2 j k := fun k => funext fun a => Fin.ext (by match a with | ⟨0, _⟩ => rfl | ⟨1, _⟩ => rfl)
  rw [val_main_v39_apply, val_main_v38_apply, val_main_v37_apply, val_main_v36_apply, one_sub1_at x0 x1 x3 x4 x5 x6 x7 x8 x9 r,
    layer1_at x0 x1 x3 x4 x5 x6 x7 x8 x9 r]
  simp only [el, er, grad2_at x0 x1 x3 x4 x5 x6 x7 x8 x9 r hW3 hW4, Ideal.mulf_def, Ideal.addf_def]
  exact tanh_rule (isReal_back2 (netOf x3 x4 x5 x6 x7 x8 x9) _ _ (fun j => hW4 _) (fun j k => hW3 _) (fun j k => hW2 _) j)
    (isReal_h1 _ _ _ j)

/-- The cotangent carried back through W1: at column c, the contraction of g1 with W1's row c. -/
theorem back1_at (c : Fin 2) :
    val_main_v40 (F := Ideal) x0 x1 x3 x4 x5 x6 x7 x8 x9 (ix2 r c) = ∑ j : Fin 128, g1 (netOf x3 x4 x5 x6 x7 x8 x9) (x0 (ix2 r (0 : Fin 1))) (x1 (ix2 r (0 : Fin 1))) j * x3 (ix2 c j) := by
  have el : ∀ k : Fin 128, lidx_main_v40 (ix2 r c) k = ix2 r k := fun k => funext fun a => Fin.ext (by match a with | ⟨0, _⟩ => rfl | ⟨1, _⟩ => rfl)
  have er : ∀ k : Fin 128, ridx_main_v40 (ix2 r c) k = ix2 c k := fun k => funext fun a => Fin.ext (by match a with | ⟨0, _⟩ => rfl | ⟨1, _⟩ => rfl)
  rw [val_main_v40_apply]
  simp only [el, er, grad1_at x0 x1 x3 x4 x5 x6 x7 x8 x9 r hW2 hW3 hW4]

end Cert.Hnn.Ref

end
-- ==== Proof.RefRow.lean ====
/-
  The reference program's result, read at one entry, is the specification's row.

  The last operations cut the contraction with W1 into its two columns, negate the first and add the
  external force, multiply both by the time step, and join them again with the second column FIRST:
  column 0 of the result is ∂H/∂p · dt and column 1 is (−∂H/∂q + F) · dt. The specification writes the
  negation as 0 − x, which is the same extended real.
-/
import proofs.«166184_j10488310137126_2_alg».proof.Proof.RefRowBwd

noncomputable section

namespace Cert.Hnn.Ref

open Cert.ReferenceIdeal Cert.ReferenceIdeal.Read Idealize.ShloMosaic Idealize.ShloMosaic.ValueIdx Cert.LibRealEntries

variable (x0 x1 x2 : (⟨S524288x1, .f32⟩ : BufTy).Contents (Elt Ideal)) (x3 : (⟨S2x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal)) (x9 : (⟨S128x1, .f32⟩ : BufTy).Contents (Elt Ideal))
  (hW2 : ∀ i, ∃ t : ℝ, x5 i = (t : EReal)) (hW3 : ∀ i, ∃ t : ℝ, x7 i = (t : EReal)) (hW4 : ∀ i, ∃ t : ℝ, x9 i = (t : EReal))
  (r : Fin 524288)
include hW2 hW3 hW4

/-- Column 0 of the result row: ∂H/∂p times the time step. -/
theorem ref_row_col0 :
    val_main_v49 (F := Ideal) x0 x1 x2 x3 x4 x5 x6 x7 x8 x9 (ix2 r (0 : Fin 2))
      = out (netOf x3 x4 x5 x6 x7 x8 x9) (x0 (ix2 r (0 : Fin 1))) (x1 (ix2 r (0 : Fin 1))) (x2 (ix2 r (0 : Fin 1))) (0 : Fin 2) := by
  have e42 : idx_main_v42 (ix2 r (0 : Fin 1)) = ix2 r (1 : Fin 2) := funext fun a => Fin.ext (by match a with | ⟨0, _⟩ => rfl | ⟨1, _⟩ => rfl)
  unfold val_main_v49
  refine (concatenate_pair_apply_left (t := S524288x2) (s₁ := S524288x1) (s₂ := S524288x1) (1 : Fin 2) _ _ _
    (ix2 r (0 : Fin 2)) rfl (ix2 r (0 : Fin 1)) (fun b => by match b with | ⟨0, _⟩ => rfl | ⟨1, _⟩ => rfl)).trans ?_
  rw [val_main_v46_apply, val_main_v42_apply, val_main_v45_apply, val_main_cst_4_apply, e42,
    back1_at x0 x1 x3 x4 x5 x6 x7 x8 x9 r hW2 hW3 hW4, Ideal.mulf_def, Ideal.ofBits_def]
  rfl

/-- Column 1 of the result row: minus ∂H/∂q plus the external force, times the time step. -/
theorem ref_row_col1 :
    val_main_v49 (F := Ideal) x0 x1 x2 x3 x4 x5 x6 x7 x8 x9 (ix2 r (1 : Fin 2))
      = out (netOf x3 x4 x5 x6 x7 x8 x9) (x0 (ix2 r (0 : Fin 1))) (x1 (ix2 r (0 : Fin 1))) (x2 (ix2 r (0 : Fin 1))) (1 : Fin 2) := by
  have e41 : idx_main_v41 (ix2 r (0 : Fin 1)) = ix2 r (0 : Fin 2) := funext fun a => Fin.ext (by match a with | ⟨0, _⟩ => rfl | ⟨1, _⟩ => rfl)
  unfold val_main_v49
  refine (concatenate_pair_apply_right (t := S524288x2) (s₁ := S524288x1) (s₂ := S524288x1) (1 : Fin 2) _ _ _
    (ix2 r (1 : Fin 2)) rfl rfl (ix2 r (0 : Fin 1))
    (fun b hb => by match b, hb with | ⟨0, _⟩, _ => rfl | ⟨1, _⟩, hb => exact absurd rfl hb) rfl).trans ?_
  rw [val_main_v48_apply, val_main_v44_apply, val_main_v43_apply, val_main_v41_apply, val_main_v47_apply,
    val_main_cst_5_apply, e41, back1_at x0 x1 x3 x4 x5 x6 x7 x8 x9 r hW2 hW3 hW4, Ideal.mulf_def, Ideal.addf_def,
    Ideal.hostNegf_def, Ideal.negf_def, Ideal.ofBits_def]
  show _ = (0 - dHdq _ _ _ + _) * dt
  rw [zero_sub]
  rfl

/-- The reference program's result at (r, c) is the specification's row of the sample r at column c. -/
theorem ref_row (c : Fin 2) :
    val_main_v49 (F := Ideal) x0 x1 x2 x3 x4 x5 x6 x7 x8 x9 (ix2 r c)
      = out (netOf x3 x4 x5 x6 x7 x8 x9) (x0 (ix2 r (0 : Fin 1))) (x1 (ix2 r (0 : Fin 1))) (x2 (ix2 r (0 : Fin 1))) c :=
  match c with
  | ⟨0, _⟩ => ref_row_col0 x0 x1 x2 x3 x4 x5 x6 x7 x8 x9 hW2 hW3 hW4 r
  | ⟨1, _⟩ => ref_row_col1 x0 x1 x2 x3 x4 x5 x6 x7 x8 x9 hW2 hW3 hW4 r

end Cert.Hnn.Ref

end
-- ==== Proof.FiniteTables.lean ====
/-
  From the precondition to "these tables hold real numbers".

  The precondition says, of each of the eleven float arguments x, that every entry satisfies |x| < +∞, all eleven
  joined by "and". On the extended reals |x| = max x (−x), and max x (−x) < ⊤ rules out both x = ⊤ and x = ⊥
  (for x = ⊥ the negation is ⊤), so every entry is the image of a real number. The +∞ the entries are compared with
  is the f32 word 0x7F800000: all-ones exponent, zero fraction, sign clear.
-/
import proofs.«166184_j10488310137126_2_alg».proof.Pre_finite_inputs
import proofs.«166184_j10488310137126_2_alg».proof.Proof.Gen.Pre_finite_inputs
import Idealize.ShloMosaic.PureOps.Ideal
import Idealize.ShloMosaic.Lib.ReduceAll
import Idealize.ShloMosaic.Lib.ValueIdx

noncomputable section

namespace Cert.Hnn.Finite

open Idealize.ShloMosaic Cert.Pre_finite_inputs

/-- The shape with no axes has one index. -/
instance subsingleton_scalar_idx : Subsingleton S_.Idx := ⟨fun a b => funext fun d => d.elim0⟩

/-- The f32 word 0x7F800000 is +∞. -/
theorem inf_word : Ideal.ofBits .f32 0x7F800000#32 = (⊤ : EReal) := by
  simp [Ideal.ofBits, Ideal.ieee]

/-- An extended real whose absolute value max x (−x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One "all entries satisfy |x| < +∞" clause of the precondition, read back: every entry of x is a real. -/
theorem all_real {s : Shape} {axes : List (Fin s.rank)} (hb : S_.BroadcastsInDim s (![] : Fin 0 → Fin s.rank))
    (hr : s.ReducesTo axes S_) (hu : 0 < S_.numel) (x : FVec Ideal s .f32)
    (h : Host.reduce IntOp.andi
          (cmpf .olt (Host.absf x) (broadcastInDim s ![] hb (constant (F := Ideal) S_ .f32 0x7F800000#32)))
          (constantI S_ 1 1#1) hr hu ValueIdx.ix0 = 1#1) :
    ∀ i, ∃ r : ℝ, x i = (r : EReal) := by
  intro i
  have e := Host.reduce_andi_all _ _ hr hu ValueIdx.ix0 h i
  apply real_of_abs_lt_top
  have e' : Ideal.cmp .olt (max (x i) (-(x i))) (Ideal.ofBits .f32 0x7F800000#32) = 1#1 := e
  rw [inf_word] at e'
  unfold Ideal.cmp at e'
  by_contra hn
  simp [hn] at e'

/-- The precondition read back in full: every entry of each of the eleven float arguments is a real number. -/
theorem args_real [Cert.Pre_finite_inputs.Facts]
    (a0 a1 a2 : FVec Ideal S524288x1 .f32) (a3 : FVec Ideal S2x128 .f32) (a4 : FVec Ideal S128 .f32)
    (a5 : FVec Ideal S128x128 .f32) (a6 : FVec Ideal S128 .f32) (a7 : FVec Ideal S128x128 .f32)
    (a8 : FVec Ideal S128 .f32) (a9 : FVec Ideal S128x1 .f32) (a10 : FVec Ideal S1 .f32)
    (h : Cert.Pre_finite_inputs.fn (F := Ideal) a0 a1 a2 a3 a4 a5 a6 a7 a8 a9 a10 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧ (∀ i, ∃ r : ℝ, a8 i = (r : EReal)) ∧
    (∀ i, ∃ r : ℝ, a9 i = (r : EReal)) ∧ (∀ i, ∃ r : ℝ, a10 i = (r : EReal)) := by
  have e := congrFun h ValueIdx.ix0
  dsimp only [fn, fn_part1, fn_part2, fn_part3, andi] at e
  simp only [IntOp.andi_eq_one] at e
  obtain ⟨⟨⟨⟨⟨⟨⟨⟨⟨⟨e0, e1⟩, e2⟩, e3⟩, e4⟩, e5⟩, e6⟩, e7⟩, e8⟩, e9⟩, e10⟩ := e
  exact ⟨all_real _ _ _ a0 e0, all_real _ _ _ a1 e1, all_real _ _ _ a2 e2, all_real _ _ _ a3 e3,
    all_real _ _ _ a4 e4, all_real _ _ _ a5 e5, all_real _ _ _ a6 e6, all_real _ _ _ a7 e7,
    all_real _ _ _ a8 e8, all_real _ _ _ a9 e9, all_real _ _ _ a10 e10⟩

/-- The three weight tables the algebraic law needs as real matrices: W2, W3 (128×128) and W4 (128×1). -/
theorem tables_real [Cert.Pre_finite_inputs.Facts]
    (a0 a1 a2 : FVec Ideal S524288x1 .f32) (a3 : FVec Ideal S2x128 .f32) (a4 : FVec Ideal S128 .f32)
    (a5 : FVec Ideal S128x128 .f32) (a6 : FVec Ideal S128 .f32) (a7 : FVec Ideal S128x128 .f32)
    (a8 : FVec Ideal S128 .f32) (a9 : FVec Ideal S128x1 .f32) (a10 : FVec Ideal S1 .f32)
    (h : Cert.Pre_finite_inputs.fn (F := Ideal) a0 a1 a2 a3 a4 a5 a6 a7 a8 a9 a10 = fun _ => 1#1) :
    (∀ i, ∃ r : ℝ, a5 i = (r : EReal)) ∧ (∀ i, ∃ r : ℝ, a7 i = (r : EReal)) ∧ (∀ i, ∃ r : ℝ, a9 i = (r : EReal)) :=
  have H := args_real a0 a1 a2 a3 a4 a5 a6 a7 a8 a9 a10 h
  ⟨H.2.2.2.2.2.1, H.2.2.2.2.2.2.2.1, H.2.2.2.2.2.2.2.2.2.1⟩

end Cert.Hnn.Finite

end
-- ==== Proof.lean ====
/-
  A Hamiltonian network's time step, computed two ways, and the proof that they agree.

  Both programs take 524288 samples (q, p), an external force F, and the tables of a three-layer tanh network H, and
  return for every sample the row (∂H/∂p · dt, (−∂H/∂q + F) · dt). One program differentiates H by hand inside a
  region that walks the samples in 128 blocks of 4096; the other lets automatic differentiation produce the gradient
  on the host, whole arrays at a time. Read on the extended reals with exact operations, each computes, row by row,
  one function of the arguments (`Cert.Hnn.out`, in Proof/Spec.lean):

  * the region's body at one sample is that function of the sample and the tables (Proof/KernelRow.lean), the 128
    blocks tile the result, so the result array is that function of the argument arrays (Proof/KernelIdealFinal.lean);
  * the host program's 57 operations, read at one entry, give the same function (Proof/RefRow.lean). The two spell the
    derivative of tanh differently — g·(1 − h²) against g·(1 − h) + g·(1 − h)·h — which agree when g is a real number;
    that is where the precondition is used: finite tables W2, W3, W4 make every back-propagated g real
    (Proof/FiniteTables.lean reads that off the precondition).

  The three programs run to the end without a fault and leave their arguments unchanged: for the two programs with a
  region, from the library's launch theorem and the body's run at one grid point (Proof/KernelBody.lean,
  Proof/KernelIdealBody.lean, over Proof/KernelEntry.lean, Proof/KernelIdealEntry.lean: the program up to the region);
  for the host program, from its generated run. The idealized kernel is the printed kernel's own text read at the exact
  instance (no rewrite was applied), so there is nothing to preserve.
-/
import proofs.«166184_j10488310137126_2_alg».proof.Defs
import proofs.«166184_j10488310137126_2_alg».proof.Proof.Gen.Kernel
import proofs.«166184_j10488310137126_2_alg».proof.Proof.Gen.KernelIdeal
import proofs.«166184_j10488310137126_2_alg».proof.Proof.Gen.ReferenceIdeal
import proofs.«166184_j10488310137126_2_alg».proof.Proof.Gen.Pre_finite_inputs
import proofs.«166184_j10488310137126_2_alg».proof.Proof.Gen.ReferenceIdeal.Run
import proofs.«166184_j10488310137126_2_alg».proof.Proof.Gen.ReferenceIdeal.Read
import proofs.«166184_j10488310137126_2_alg».proof.Proof.KernelBody
import proofs.«166184_j10488310137126_2_alg».proof.Proof.KernelIdealFinal
import proofs.«166184_j10488310137126_2_alg».proof.Proof.RefRow
import proofs.«166184_j10488310137126_2_alg».proof.Proof.FiniteTables
import Idealize.ShloMosaic.Adequacy
import Idealize.ShloMosaic.Init

noncomputable section

namespace Cert.Proof

open Idealize.ShloMosaic Idealize.ShloMosaic.TcCoe Idealize.ShloMosaic.ValueIdx Idealize.SL.Sem

/-- The printed kernel runs and leaves its arguments unchanged. -/
theorem frame_k : Cert.frame_Kernel := fun m ρ _ => Cert.Kernel.Hnn.frame m ρ

/-- So does its reading on the extended reals. -/
theorem frame_ki : Cert.frame_KernelIdeal := fun m ρ _ => Cert.KernelIdeal.Hnn.frame m ρ

/-- The host program's run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories agreeing on the arguments both programs end with the result array at the specification's row of
    every sample: the kernel by its blocks, the host program by its operations read at an entry, the finite tables
    making the two spellings of the tanh rule agree. -/
theorem algebraic : Cert.algebraic_KernelIdeal_ReferenceIdeal := by
  intro m ρ m' ρ' hpre hagree
  refine ⟨fun c => Cert.KernelIdeal.Hnn.G m c, Cert.KernelIdeal.Hnn.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq]
  obtain ⟨h0, h1, h2, h3, h4, h5, h6, h7, h8, h9, -⟩ := hagree c
  rw [h0, h1, h2, h3, h4, h5, h6, h7, h8, h9]
  obtain ⟨hW2, hW3, hW4⟩ := Cert.Hnn.Finite.tables_real _ _ _ _ _ _ _ _ _ _ _ (hpre c)
  funext i
  have ei : i = (ix2 (⟨(i 0).val, idx2_lt0 i⟩ : Fin 524288) (⟨(i 1).val, idx2_lt1 i⟩ : Fin 2) : Cert.ReferenceIdeal.S524288x2.Idx) :=
    funext fun a => by
      match a with
      | ⟨0, _⟩ => rfl
      | ⟨1, _⟩ => rfl
  exact (congrArg _ ei).trans (Cert.Hnn.Ref.ref_row _ _ _ _ _ _ _ _ _ _ hW2 hW3 hW4 _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
